-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S_ : Shape := ⟨0, ![]⟩
abbrev S4063232x3 : Shape := ⟨2, ![4063232, 3]⟩
abbrev S4063232x4 : Shape := ⟨2, ![4063232, 4]⟩
abbrev S3x4063232 : Shape := ⟨2, ![3, 4063232]⟩
abbrev S3x31744x128 : Shape := ⟨3, ![3, 31744, 128]⟩
abbrev S4x4063232 : Shape := ⟨2, ![4, 4063232]⟩
abbrev S4x31744x128 : Shape := ⟨3, ![4, 31744, 128]⟩
abbrev S9x31744x128 : Shape := ⟨3, ![9, 31744, 128]⟩
abbrev S9x4063232 : Shape := ⟨2, ![9, 4063232]⟩
abbrev S4063232x9 : Shape := ⟨2, ![4063232, 9]⟩
abbrev S4000000x9 : Shape := ⟨2, ![4000000, 9]⟩
abbrev S4000000x3x3 : Shape := ⟨3, ![4000000, 3, 3]⟩
abbrev S3x512x128 : Shape := ⟨3, ![3, 512, 128]⟩
abbrev S4x512x128 : Shape := ⟨3, ![4, 512, 128]⟩
abbrev S9x512x128 : Shape := ⟨3, ![9, 512, 128]⟩
abbrev S1x512x128 : Shape := ⟨3, ![1, 512, 128]⟩
abbrev S512x128 : Shape := ⟨2, ![512, 128]⟩

abbrev nBuf : Space → Nat
  | .hbm => 17
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S_, .i32⟩
  | .hbm, ⟨3, _⟩ => ⟨S_, .f32⟩
  | .hbm, ⟨4, _⟩ => ⟨S4063232x3, .f32⟩
  | .hbm, ⟨5, _⟩ => ⟨S_, .i32⟩
  | .hbm, ⟨6, _⟩ => ⟨S_, .f32⟩
  | .hbm, ⟨7, _⟩ => ⟨S4063232x4, .f32⟩
  | .hbm, ⟨8, _⟩ => ⟨S3x4063232, .f32⟩
  | .hbm, ⟨9, _⟩ => ⟨S3x31744x128, .f32⟩
  | .hbm, ⟨10, _⟩ => ⟨S4x4063232, .f32⟩
  | .hbm, ⟨11, _⟩ => ⟨S4x31744x128, .f32⟩
  | .hbm, ⟨12, _⟩ => ⟨S9x31744x128, .f32⟩
  | .hbm, ⟨13, _⟩ => ⟨S9x4063232, .f32⟩
  | .hbm, ⟨14, _⟩ => ⟨S4063232x9, .f32⟩
  | .hbm, ⟨15, _⟩ => ⟨S4000000x9, .f32⟩
  | .hbm, ⟨16, _⟩ => ⟨S4000000x3x3, .f32⟩
  | .local _ .vmem, ⟨0, _⟩ => ⟨S3x512x128, .f32⟩
  | .local _ .vmem, ⟨1, _⟩ => ⟨S3x512x128, .f32⟩
  | .local _ .vmem, ⟨2, _⟩ => ⟨S4x512x128, .f32⟩
  | .local _ .vmem, ⟨3, _⟩ => ⟨S4x512x128, .f32⟩
  | .local _ .vmem, ⟨4, _⟩ => ⟨S9x512x128, .f32⟩
  | .local _ .vmem, ⟨5, _⟩ => ⟨S9x512x128, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_call0_c_0 : Ref sig .tc := ⟨.hbm, 5, rfl⟩
abbrev main_call0_call1_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![62], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4000000x3_S4063232x3_0632320_000 : S4000000x3.Pads (![0, 0] : Fin 2 → Nat) ![63232, 0] ![0, 0] S4063232x3
  h_S_ : 0 < S_.numel
  pads_S4000000x4_S4063232x4_0632320_000 : S4000000x4.Pads (![0, 0] : Fin 2 → Nat) ![63232, 0] ![0, 0] S4063232x4
  transposes_S4063232x3_S3x4063232_1_0 : S4063232x3.Transposes [1, 0] S3x4063232
  shapeCasts_S3x4063232_S3x31744x128 : S3x4063232.ShapeCasts S3x31744x128
  transposes_S4063232x4_S4x4063232_1_0 : S4063232x4.Transposes [1, 0] S4x4063232
  shapeCasts_S4x4063232_S4x31744x128 : S4x4063232.ShapeCasts S4x31744x128
  shapeCasts_S9x31744x128_S9x4063232 : S9x31744x128.ShapeCasts S9x4063232
  transposes_S9x4063232_S4063232x9_1_0 : S9x4063232.Transposes [1, 0] S4063232x9
  slices_S4063232x9_S4000000x9_0_0 : S4063232x9.Slices ![0, 0] S4000000x9
  shapeCasts_S4000000x9_S4000000x3x3 : S4000000x9.ShapeCasts S4000000x3x3
  inb_S3x512x128_S1x512x128_0_0_0 : ∀ a, (![0, 0, 0] : Fin 3 → Nat) a + S1x512x128.size a ≤ S3x512x128.size a
  h_S1x512x128 : 0 < S1x512x128.numel
  shapeCasts_S1x512x128_S512x128 : S1x512x128.ShapeCasts S512x128
  inb_S3x512x128_S1x512x128_1_0_0 : ∀ a, (![1, 0, 0] : Fin 3 → Nat) a + S1x512x128.size a ≤ S3x512x128.size a
  inb_S3x512x128_S1x512x128_2_0_0 : ∀ a, (![2, 0, 0] : Fin 3 → Nat) a + S1x512x128.size a ≤ S3x512x128.size a
  inb_S4x512x128_S1x512x128_0_0_0 : ∀ a, (![0, 0, 0] : Fin 3 → Nat) a + S1x512x128.size a ≤ S4x512x128.size a
  inb_S4x512x128_S1x512x128_1_0_0 : ∀ a, (![1, 0, 0] : Fin 3 → Nat) a + S1x512x128.size a ≤ S4x512x128.size a
  inb_S4x512x128_S1x512x128_2_0_0 : ∀ a, (![2, 0, 0] : Fin 3 → Nat) a + S1x512x128.size a ≤ S4x512x128.size a
  inb_S4x512x128_S1x512x128_3_0_0 : ∀ a, (![3, 0, 0] : Fin 3 → Nat) a + S1x512x128.size a ≤ S4x512x128.size a
  inb_S9x512x128_S1x512x128_0_0_0 : ∀ a, (![0, 0, 0] : Fin 3 → Nat) a + S1x512x128.size a ≤ S9x512x128.size a
  shapeCasts_S512x128_S1x512x128 : S512x128.ShapeCasts S1x512x128
  inb_S9x512x128_S1x512x128_1_0_0 : ∀ a, (![1, 0, 0] : Fin 3 → Nat) a + S1x512x128.size a ≤ S9x512x128.size a
  inb_S9x512x128_S1x512x128_2_0_0 : ∀ a, (![2, 0, 0] : Fin 3 → Nat) a + S1x512x128.size a ≤ S9x512x128.size a
  inb_S9x512x128_S1x512x128_3_0_0 : ∀ a, (![3, 0, 0] : Fin 3 → Nat) a + S1x512x128.size a ≤ S9x512x128.size a
  inb_S9x512x128_S1x512x128_4_0_0 : ∀ a, (![4, 0, 0] : Fin 3 → Nat) a + S1x512x128.size a ≤ S9x512x128.size a
  inb_S9x512x128_S1x512x128_5_0_0 : ∀ a, (![5, 0, 0] : Fin 3 → Nat) a + S1x512x128.size a ≤ S9x512x128.size a
  inb_S9x512x128_S1x512x128_6_0_0 : ∀ a, (![6, 0, 0] : Fin 3 → Nat) a + S1x512x128.size a ≤ S9x512x128.size a
  inb_S9x512x128_S1x512x128_7_0_0 : ∀ a, (![7, 0, 0] : Fin 3 → Nat) a + S1x512x128.size a ≤ S9x512x128.size a
  inb_S9x512x128_S1x512x128_8_0_0 : ∀ a, (![8, 0, 0] : Fin 3 → Nat) a + S1x512x128.size a ≤ S9x512x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x128.size a ≤ S3x31744x128.size a
  hwx0_0 : ∀ i : grid0.Coords, EltTy.bits .f32 = 32 ∨ (Rect.block (s := S3x31744x128) S3x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x128.size a ≤ S4x31744x128.size a
  hwx0_1 : ∀ i : grid0.Coords, EltTy.bits .f32 = 32 ∨ (Rect.block (s := S4x31744x128) S4x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x512x128.size a ≤ S9x31744x128.size a
  hwx0_2 : ∀ i : grid0.Coords, EltTy.bits .f32 = 32 ∨ (Rect.block (s := S9x31744x128) S9x512x128.size (cc0_transform_2 i) (hinb0_2 i)).WholeWords (EltTy.packing .f32)

variable [Facts₀]

abbrev win0_0 : Pipeline.Window sig grid0 :=
  Pipeline.Window.ofSpec (Memref.whole main_call0_v3) S3x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S4x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S9x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 99
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x3, .f32⟩
  | .hbm, ⟨3, _⟩ => ⟨S4000000x4, .f32⟩
  | .hbm, ⟨4, _⟩ => ⟨S_, .f32⟩
  | .hbm, ⟨5, _⟩ => ⟨S4000000, .f32⟩
  | .hbm, ⟨6, _⟩ => ⟨S4000000x1, .f32⟩
  | .hbm, ⟨7, _⟩ => ⟨S4000000x1, .f32⟩
  | .hbm, ⟨8, _⟩ => ⟨S_, .f32⟩
  | .hbm, ⟨9, _⟩ => ⟨S4000000x1, .f32⟩
  | .hbm, ⟨10, _⟩ => ⟨S4000000x1, .f32⟩
  | .hbm, ⟨11, _⟩ => ⟨S4000000x4, .f32⟩
  | .hbm, ⟨12, _⟩ => ⟨S4000000x4, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000x1, .f32⟩
  | .hbm, ⟨18, _⟩ => ⟨S4000000, .f32⟩
  | .hbm, ⟨19, _⟩ => ⟨S4000000x1, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S_, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S_, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S_, .f32⟩
  | .hbm, ⟨79, _⟩ => ⟨S4000000, .f32⟩
  | .hbm, ⟨80, _⟩ => ⟨S4000000, .f32⟩
  | .hbm, ⟨81, _⟩ => ⟨S_, .f32⟩
  | .hbm, ⟨82, _⟩ => ⟨S4000000, .f32⟩
  | .hbm, ⟨83, _⟩ => ⟨S4000000, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x1, .f32⟩
  | .hbm, ⟨93, _⟩ => ⟨S4000000x9, .f32⟩
  | .hbm, ⟨94, _⟩ => ⟨S4000000x3x3, .f32⟩
  | .hbm, ⟨95, _⟩ => ⟨S4000000x1x3, .f32⟩
  | .hbm, ⟨96, _⟩ => ⟨S4000000x3x3, .f32⟩
  | .hbm, ⟨97, _⟩ => ⟨S4000000x3x3, .f32⟩
  | .hbm, ⟨98, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.CovSpec.lean ====
/-
  The covariance of one Gaussian, as a scalar function of its seven inputs.

  A row holds three log-scales `a0 a1 a2` and a quaternion `(qr, qi, qj, qk)`. With `s_c = exp a_c`, the quaternion divided
  by its norm clamped below at a small positive constant, `R` the rotation matrix of that unit quaternion and
  `M = R · diag(s)`, the covariance is `M Mᵀ`: entry `(i, k)` is the dot product of rows `i` and `k` of `M`. It is
  symmetric, so its nine entries, numbered `3 i + k`, take six values.

  Everything is stated on the extended reals, the float literals kept as the values their patterns denote; the three
  laws that join the two ways the programs spell this function are proved here:
  dividing by a nonzero `y` is multiplying by the reciprocal `1 / y`; a sum of four squares started at zero is the
  nested sum; the dot product of two rows does not depend on their order.
-/
import Idealize.ShloMosaic.PureOps.Ideal
import Idealize.ShloMosaic.PureOps.Ideal.Laws
import Idealize.ShloMosaic.Lib.ValueIdx

noncomputable section

namespace Cert.QuatCov

open Idealize.ShloMosaic

/-- The literal `1.0`. -/
abbrev one : EReal := Ideal.ofBits .f32 0x3F800000#32
/-- The literal `2.0`. -/
abbrev two : EReal := Ideal.ofBits .f32 0x40000000#32
/-- The clamp under the norm, the float nearest `1e-12`. -/
abbrev tiny : EReal := Ideal.ofBits .f32 0x2B8CBCCC#32

/-- `1.0` denotes the extended real `1`. -/
theorem one_eq : one = 1 := by
  simp [one, Ideal.ofBits, Ideal.ieee, -EReal.coe_mul]; norm_num

/-- The clamp is positive. -/
theorem tiny_pos : 0 < tiny := by
  simp [tiny, Ideal.ofBits, Ideal.ieee, -EReal.coe_mul]

/-! ## The scalar function -/

/-- The norm of the quaternion, clamped below. -/
def norm (qr qi qj qk : EReal) : EReal := max (Ideal.sqrt (qr * qr + qi * qi + qj * qj + qk * qk)) tiny

/-- Its reciprocal: the factor that normalises each component. -/
def recip (qr qi qj qk : EReal) : EReal := Ideal.div one (norm qr qi qj qk)

/-- The rotation matrix of a unit quaternion `(r, i, j, k)`, entry by entry. -/
def R00 (j k : EReal) : EReal := one - two * (j * j + k * k)
def R01 (r i j k : EReal) : EReal := two * (i * j - k * r)
def R02 (r i j k : EReal) : EReal := two * (i * k + j * r)
def R10 (r i j k : EReal) : EReal := two * (i * j + k * r)
def R11 (i k : EReal) : EReal := one - two * (i * i + k * k)
def R12 (r i j k : EReal) : EReal := two * (j * k - i * r)
def R20 (r i j k : EReal) : EReal := two * (i * k - j * r)
def R21 (r i j k : EReal) : EReal := two * (j * k + i * r)
def R22 (i j : EReal) : EReal := one - two * (i * i + j * j)

/-- The dot product of two rows of three. -/
def dot3 (a b c d e f : EReal) : EReal := a * d + b * e + c * f

/-- Entry `ch = 3 i + k` of the covariance `M Mᵀ`, `M = R · diag(exp a)`, of the row `(a0, a1, a2; qr, qi, qj, qk)`:
    the dot product of rows `min i k` and `max i k` of `M` (the matrix is symmetric). -/
def entry (ch : Fin 9) (a0 a1 a2 qr qi qj qk : EReal) : EReal :=
  let w := recip qr qi qj qk
  let r := qr * w
  let i := qi * w
  let j := qj * w
  let k := qk * w
  let s0 := Ideal.exp a0
  let s1 := Ideal.exp a1
  let s2 := Ideal.exp a2
  let m00 := R00 j k * s0
  let m01 := R01 r i j k * s1
  let m02 := R02 r i j k * s2
  let m10 := R10 r i j k * s0
  let m11 := R11 i k * s1
  let m12 := R12 r i j k * s2
  let m20 := R20 r i j k * s0
  let m21 := R21 r i j k * s1
  let m22 := R22 i j * s2
  match ch with
  | ⟨0, _⟩ => dot3 m00 m01 m02 m00 m01 m02
  | ⟨1, _⟩ => dot3 m00 m01 m02 m10 m11 m12
  | ⟨2, _⟩ => dot3 m00 m01 m02 m20 m21 m22
  | ⟨3, _⟩ => dot3 m00 m01 m02 m10 m11 m12
  | ⟨4, _⟩ => dot3 m10 m11 m12 m10 m11 m12
  | ⟨5, _⟩ => dot3 m10 m11 m12 m20 m21 m22
  | ⟨6, _⟩ => dot3 m00 m01 m02 m20 m21 m22
  | ⟨7, _⟩ => dot3 m10 m11 m12 m20 m21 m22
  | ⟨8, _⟩ => dot3 m20 m21 m22 m20 m21 m22
  | ⟨_ + 9, h⟩ => absurd h (by omega)

/-! ## The three laws -/

/-- The clamped norm is not zero: it is at least the positive clamp. -/
theorem norm_ne_zero (qr qi qj qk : EReal) : norm qr qi qj qk ≠ 0 :=
  ne_of_gt (lt_max_of_lt_right tiny_pos)

/-- Dividing by the clamped norm is multiplying by its reciprocal: off zero a quotient is the product with the
    inverse, and `1 · y⁻¹ = y⁻¹`. -/
theorem div_norm (x qr qi qj qk : EReal) : Ideal.div x (norm qr qi qj qk) = x * recip qr qi qj qk := by
  unfold recip Ideal.div
  rw [if_neg (norm_ne_zero qr qi qj qk), if_neg (norm_ne_zero qr qi qj qk), one_eq, one_mul]

/-- A sum over four terms started at the zero literal is the nested sum. -/
theorem sum4 (f : Fin 4 → EReal) :
    Ideal.ofBits .f32 0x00000000#32 + ∑ k : Fin 4, f k = f 0 + f 1 + f 2 + f 3 := by
  rw [Ideal.ofBits_zero_f32, zero_add, Fin.sum_univ_four]

/-- A sum over three terms is the nested sum. -/
theorem sum3 (f : Fin 3 → EReal) : ∑ k : Fin 3, f k = f 0 + f 1 + f 2 := Fin.sum_univ_three f

/-- The dot product of two rows does not depend on their order. -/
theorem dot3_comm (a b c d e f : EReal) : dot3 a b c d e f = dot3 d e f a b c := by
  unfold dot3; rw [mul_comm a d, mul_comm b e, mul_comm c f]

/-! ## The whole result

The result array has one covariance per row: at `(n, i, k)` entry `3 i + k` of row `n`'s inputs. -/

/-- The result at index `(n, i, k)` from the two argument arrays. -/
def result (scale : (⟨2, ![4000000, 3]⟩ : Shape).Idx → EReal) (rot : (⟨2, ![4000000, 4]⟩ : Shape).Idx → EReal) :
    (⟨3, ![4000000, 3, 3]⟩ : Shape).Idx → EReal := fun y =>
  entry ⟨3 * (y 1).val + (y 2).val, by have := (y 1).isLt; have := (y 2).isLt; simp at *; omega⟩
    (scale (ValueIdx.ix2 (y 0) ⟨0, by decide⟩)) (scale (ValueIdx.ix2 (y 0) ⟨1, by decide⟩)) (scale (ValueIdx.ix2 (y 0) ⟨2, by decide⟩))
    (rot (ValueIdx.ix2 (y 0) ⟨0, by decide⟩)) (rot (ValueIdx.ix2 (y 0) ⟨1, by decide⟩)) (rot (ValueIdx.ix2 (y 0) ⟨2, by decide⟩))
    (rot (ValueIdx.ix2 (y 0) ⟨3, by decide⟩))

end Cert.QuatCov

end
-- ==== Proof.BlockValue.lean ====
/-
  What the kernel body leaves in one output block.

  The body reads the three log-scale channels and the four quaternion channels of a block as [512,128] slabs, does
  the same arithmetic at every position of the slab, and stores nine slabs, one per covariance entry. So at position
  `(p, q)` of channel `ch` the block holds entry `ch` of the covariance of the seven inputs at `(p, q)`:
  every operation of the body acts entry by entry, and the only re-indexing is the unit axis a slab loses when it is
  loaded and regains when it is stored.
-/
import proofs.«112157_j57191784513783_2_alg».proof.Proof.Gen.KernelIdeal.Frame
import proofs.«112157_j57191784513783_2_alg».proof.Proof.CovSpec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.TcCoe Idealize.SL.Sem
open Idealize.ShloMosaic.ValueIdx Cert.QuatCov

/-! ## The unit axis of a slab -/

/-- A [1,512,128] block viewed [512,128] reads (0, p, q) at (p, q). -/
theorem drop1 {α : Type} (v : S1x512x128.Idx → α) (p : Fin 512) (q : Fin 128) :
    shapeCast S512x128 v shapeCasts_S1x512x128_S512x128 (ix2 p q) = v (ix3 ⟨0, Nat.one_pos⟩ p q) := by
  refine (shapeCast_dropUnit_apply ![512, 128] v _ (ix2 p q)).trans (congrArg v ?_)
  funext a; match a with | ⟨0, _⟩ => rfl | ⟨1, _⟩ => rfl | ⟨2, _⟩ => rfl

/-- A [512,128] value stored as a [1,512,128] block reads (p, q) at (0, p, q). -/
theorem add1 {α : Type} (v : S512x128.Idx → α) (p : Fin 512) (q : Fin 128) :
    shapeCast S1x512x128 v shapeCasts_S512x128_S1x512x128 (ix3 ⟨0, Nat.one_pos⟩ p q) = v (ix2 p q) := by
  refine (shapeCast_addUnit_apply ![512, 128] v _ (ix3 ⟨0, Nat.one_pos⟩ p q)).trans (congrArg v ?_)
  funext a; match a with | ⟨0, _⟩ => rfl | ⟨1, _⟩ => rfl

/-- The square root and the exponential act entry by entry. -/
theorem sqrt_at {s : Shape} (v : FVec Ideal s .f32) (i : s.Idx) : sqrt v i = Ideal.sqrt (v i) := rfl
theorem exp_at {s : Shape} (v : FVec Ideal s .f32) (i : s.Idx) : exp v i = Ideal.exp (v i) := rfl

/-- Every index of a [1,512,128] slab is `(0, p, q)`. -/
theorem exists_pq (x : S1x512x128.Idx) : ∃ (p : Fin 512) (q : Fin 128), x = ix3 ⟨0, Nat.one_pos⟩ p q :=
  ⟨x 1, x 2, by
    have h0 : x 0 = ⟨0, Nat.one_pos⟩ := Fin.ext (Nat.lt_one_iff.mp (x 0).isLt)
    exact (eq_ix3 x).trans (congrArg (fun z => ix3 z (x 1) (x 2)) h0)⟩

/-- The unit-stride rectangle of one channel `c` of a [C,512,128] buffer places (0, p, q) at (c, p, q). -/
theorem chan_idx {C : Nat} (c : Nat) (hc : c < C) (inb) (p : Fin 512) (q : Fin 128) :
    (Rect.unit (s := ⟨3, ![C, 512, 128]⟩) ![c, 0, 0] ![1, 512, 128] inb).idx (ix3 ⟨0, Nat.one_pos⟩ p q) = ix3 ⟨c, hc⟩ p q := by
  funext a
  match a with
  | ⟨0, _⟩ => exact Fin.ext (by show c + 1 * 0 = c; omega)
  | ⟨1, _⟩ => exact Fin.ext (by show 0 + 1 * p.val = p.val; omega)
  | ⟨2, _⟩ => exact Fin.ext (by show 0 + 1 * q.val = q.val; omega)

/-! ## Each stored slab, entry by entry

The nine stored values as functions of the seven loaded slabs: at `(0, p, q)` each is the covariance entry of its
channel, of the loaded slabs' values at `(0, p, q)`. -/

theorem chan0 (L0 L1 L2 Q0 Q1 Q2 Q3 : Vec Ideal S1x512x128 .f32) (p : Fin 512) (q : Fin 128) :
    (k0_pay43 (k0_pay7 L0) (k0_pay8 L1) (k0_pay9 L2) (k0_pay20 (k0_pay19 Q0 Q1 Q2 Q3)) (k0_pay21 (k0_pay15 Q0 Q1 Q2 Q3) (k0_pay16 Q0 Q1 Q2 Q3) (k0_pay17 Q0 Q1 Q2 Q3) (k0_pay18 Q0 Q1 Q2 Q3)) (k0_pay22 (k0_pay15 Q0 Q1 Q2 Q3) (k0_pay16 Q0 Q1 Q2 Q3) (k0_pay17 Q0 Q1 Q2 Q3) (k0_pay18 Q0 Q1 Q2 Q3))) (ix3 ⟨0, Nat.one_pos⟩ p q)
    = entry ⟨0, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan1 (L0 L1 L2 Q0 Q1 Q2 Q3 : Vec Ideal S1x512x128 .f32) (p : Fin 512) (q : Fin 128) :
    (k0_pay44 (k0_pay7 L0) (k0_pay8 L1) (k0_pay9 L2) (k0_pay20 (k0_pay19 Q0 Q1 Q2 Q3)) (k0_pay21 (k0_pay15 Q0 Q1 Q2 Q3) (k0_pay16 Q0 Q1 Q2 Q3) (k0_pay17 Q0 Q1 Q2 Q3) (k0_pay18 Q0 Q1 Q2 Q3)) (k0_pay22 (k0_pay15 Q0 Q1 Q2 Q3) (k0_pay16 Q0 Q1 Q2 Q3) (k0_pay17 Q0 Q1 Q2 Q3) (k0_pay18 Q0 Q1 Q2 Q3)) (k0_pay23 (k0_pay15 Q0 Q1 Q2 Q3) (k0_pay16 Q0 Q1 Q2 Q3) (k0_pay17 Q0 Q1 Q2 Q3) (k0_pay18 Q0 Q1 Q2 Q3)) (k0_pay24 (k0_pay16 Q0 Q1 Q2 Q3) (k0_pay18 Q0 Q1 Q2 Q3)) (k0_pay25 (k0_pay15 Q0 Q1 Q2 Q3) (k0_pay16 Q0 Q1 Q2 Q3) (k0_pay17 Q0 Q1 Q2 Q3) (k0_pay18 Q0 Q1 Q2 Q3))) (ix3 ⟨0, Nat.one_pos⟩ p q)
    = entry ⟨1, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan2 (L0 L1 L2 Q0 Q1 Q2 Q3 : Vec Ideal S1x512x128 .f32) (p : Fin 512) (q : Fin 128) :
    (k0_pay45 (k0_pay7 L0) (k0_pay8 L1) (k0_pay9 L2) (k0_pay20 (k0_pay19 Q0 Q1 Q2 Q3)) (k0_pay21 (k0_pay15 Q0 Q1 Q2 Q3) (k0_pay16 Q0 Q1 Q2 Q3) (k0_pay17 Q0 Q1 Q2 Q3) (k0_pay18 Q0 Q1 Q2 Q3)) (k0_pay22 (k0_pay15 Q0 Q1 Q2 Q3) (k0_pay16 Q0 Q1 Q2 Q3) (k0_pay17 Q0 Q1 Q2 Q3) (k0_pay18 Q0 Q1 Q2 Q3)) (k0_pay26 (k0_pay15 Q0 Q1 Q2 Q3) (k0_pay16 Q0 Q1 Q2 Q3) (k0_pay17 Q0 Q1 Q2 Q3) (k0_pay18 Q0 Q1 Q2 Q3)) (k0_pay27 (k0_pay15 Q0 Q1 Q2 Q3) (k0_pay16 Q0 Q1 Q2 Q3) (k0_pay17 Q0 Q1 Q2 Q3) (k0_pay18 Q0 Q1 Q2 Q3)) (k0_pay28 (k0_pay16 Q0 Q1 Q2 Q3) (k0_pay17 Q0 Q1 Q2 Q3))) (ix3 ⟨0, Nat.one_pos⟩ p q)
    = entry ⟨2, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan3 (L0 L1 L2 Q0 Q1 Q2 Q3 : Vec Ideal S1x512x128 .f32) (p : Fin 512) (q : Fin 128) :
    (k0_pay1 (k0_pay38 (k0_pay7 L0) (k0_pay8 L1) (k0_pay9 L2) (k0_pay20 (k0_pay19 Q0 Q1 Q2 Q3)) (k0_pay21 (k0_pay15 Q0 Q1 Q2 Q3) (k0_pay16 Q0 Q1 Q2 Q3) (k0_pay17 Q0 Q1 Q2 Q3) (k0_pay18 Q0 Q1 Q2 Q3)) (k0_pay22 (k0_pay15 Q0 Q1 Q2 Q3) (k0_pay16 Q0 Q1 Q2 Q3) (k0_pay17 Q0 Q1 Q2 Q3) (k0_pay18 Q0 Q1 Q2 Q3)) (k0_pay23 (k0_pay15 Q0 Q1 Q2 Q3) (k0_pay16 Q0 Q1 Q2 Q3) (k0_pay17 Q0 Q1 Q2 Q3) (k0_pay18 Q0 Q1 Q2 Q3)) (k0_pay24 (k0_pay16 Q0 Q1 Q2 Q3) (k0_pay18 Q0 Q1 Q2 Q3)) (k0_pay25 (k0_pay15 Q0 Q1 Q2 Q3) (k0_pay16 Q0 Q1 Q2 Q3) (k0_pay17 Q0 Q1 Q2 Q3) (k0_pay18 Q0 Q1 Q2 Q3)))) (ix3 ⟨0, Nat.one_pos⟩ p q)
    = entry ⟨3, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan4 (L0 L1 L2 Q0 Q1 Q2 Q3 : Vec Ideal S1x512x128 .f32) (p : Fin 512) (q : Fin 128) :
    (k0_pay2 (k0_pay40 (k0_pay7 L0) (k0_pay8 L1) (k0_pay9 L2) (k0_pay23 (k0_pay15 Q0 Q1 Q2 Q3) (k0_pay16 Q0 Q1 Q2 Q3) (k0_pay17 Q0 Q1 Q2 Q3) (k0_pay18 Q0 Q1 Q2 Q3)) (k0_pay24 (k0_pay16 Q0 Q1 Q2 Q3) (k0_pay18 Q0 Q1 Q2 Q3)) (k0_pay25 (k0_pay15 Q0 Q1 Q2 Q3) (k0_pay16 Q0 Q1 Q2 Q3) (k0_pay17 Q0 Q1 Q2 Q3) (k0_pay18 Q0 Q1 Q2 Q3)))) (ix3 ⟨0, Nat.one_pos⟩ p q)
    = entry ⟨4, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan5 (L0 L1 L2 Q0 Q1 Q2 Q3 : Vec Ideal S1x512x128 .f32) (p : Fin 512) (q : Fin 128) :
    (k0_pay3 (k0_pay41 (k0_pay7 L0) (k0_pay8 L1) (k0_pay9 L2) (k0_pay23 (k0_pay15 Q0 Q1 Q2 Q3) (k0_pay16 Q0 Q1 Q2 Q3) (k0_pay17 Q0 Q1 Q2 Q3) (k0_pay18 Q0 Q1 Q2 Q3)) (k0_pay24 (k0_pay16 Q0 Q1 Q2 Q3) (k0_pay18 Q0 Q1 Q2 Q3)) (k0_pay25 (k0_pay15 Q0 Q1 Q2 Q3) (k0_pay16 Q0 Q1 Q2 Q3) (k0_pay17 Q0 Q1 Q2 Q3) (k0_pay18 Q0 Q1 Q2 Q3)) (k0_pay26 (k0_pay15 Q0 Q1 Q2 Q3) (k0_pay16 Q0 Q1 Q2 Q3) (k0_pay17 Q0 Q1 Q2 Q3) (k0_pay18 Q0 Q1 Q2 Q3)) (k0_pay27 (k0_pay15 Q0 Q1 Q2 Q3) (k0_pay16 Q0 Q1 Q2 Q3) (k0_pay17 Q0 Q1 Q2 Q3) (k0_pay18 Q0 Q1 Q2 Q3)) (k0_pay28 (k0_pay16 Q0 Q1 Q2 Q3) (k0_pay17 Q0 Q1 Q2 Q3)))) (ix3 ⟨0, Nat.one_pos⟩ p q)
    = entry ⟨5, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan6 (L0 L1 L2 Q0 Q1 Q2 Q3 : Vec Ideal S1x512x128 .f32) (p : Fin 512) (q : Fin 128) :
    (k0_pay4 (k0_pay39 (k0_pay7 L0) (k0_pay8 L1) (k0_pay9 L2) (k0_pay20 (k0_pay19 Q0 Q1 Q2 Q3)) (k0_pay21 (k0_pay15 Q0 Q1 Q2 Q3) (k0_pay16 Q0 Q1 Q2 Q3) (k0_pay17 Q0 Q1 Q2 Q3) (k0_pay18 Q0 Q1 Q2 Q3)) (k0_pay22 (k0_pay15 Q0 Q1 Q2 Q3) (k0_pay16 Q0 Q1 Q2 Q3) (k0_pay17 Q0 Q1 Q2 Q3) (k0_pay18 Q0 Q1 Q2 Q3)) (k0_pay26 (k0_pay15 Q0 Q1 Q2 Q3) (k0_pay16 Q0 Q1 Q2 Q3) (k0_pay17 Q0 Q1 Q2 Q3) (k0_pay18 Q0 Q1 Q2 Q3)) (k0_pay27 (k0_pay15 Q0 Q1 Q2 Q3) (k0_pay16 Q0 Q1 Q2 Q3) (k0_pay17 Q0 Q1 Q2 Q3) (k0_pay18 Q0 Q1 Q2 Q3)) (k0_pay28 (k0_pay16 Q0 Q1 Q2 Q3) (k0_pay17 Q0 Q1 Q2 Q3)))) (ix3 ⟨0, Nat.one_pos⟩ p q)
    = entry ⟨6, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan7 (L0 L1 L2 Q0 Q1 Q2 Q3 : Vec Ideal S1x512x128 .f32) (p : Fin 512) (q : Fin 128) :
    (k0_pay5 (k0_pay41 (k0_pay7 L0) (k0_pay8 L1) (k0_pay9 L2) (k0_pay23 (k0_pay15 Q0 Q1 Q2 Q3) (k0_pay16 Q0 Q1 Q2 Q3) (k0_pay17 Q0 Q1 Q2 Q3) (k0_pay18 Q0 Q1 Q2 Q3)) (k0_pay24 (k0_pay16 Q0 Q1 Q2 Q3) (k0_pay18 Q0 Q1 Q2 Q3)) (k0_pay25 (k0_pay15 Q0 Q1 Q2 Q3) (k0_pay16 Q0 Q1 Q2 Q3) (k0_pay17 Q0 Q1 Q2 Q3) (k0_pay18 Q0 Q1 Q2 Q3)) (k0_pay26 (k0_pay15 Q0 Q1 Q2 Q3) (k0_pay16 Q0 Q1 Q2 Q3) (k0_pay17 Q0 Q1 Q2 Q3) (k0_pay18 Q0 Q1 Q2 Q3)) (k0_pay27 (k0_pay15 Q0 Q1 Q2 Q3) (k0_pay16 Q0 Q1 Q2 Q3) (k0_pay17 Q0 Q1 Q2 Q3) (k0_pay18 Q0 Q1 Q2 Q3)) (k0_pay28 (k0_pay16 Q0 Q1 Q2 Q3) (k0_pay17 Q0 Q1 Q2 Q3)))) (ix3 ⟨0, Nat.one_pos⟩ p q)
    = entry ⟨7, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

theorem chan8 (L0 L1 L2 Q0 Q1 Q2 Q3 : Vec Ideal S1x512x128 .f32) (p : Fin 512) (q : Fin 128) :
    (k0_pay6 (k0_pay42 (k0_pay7 L0) (k0_pay8 L1) (k0_pay9 L2) (k0_pay26 (k0_pay15 Q0 Q1 Q2 Q3) (k0_pay16 Q0 Q1 Q2 Q3) (k0_pay17 Q0 Q1 Q2 Q3) (k0_pay18 Q0 Q1 Q2 Q3)) (k0_pay27 (k0_pay15 Q0 Q1 Q2 Q3) (k0_pay16 Q0 Q1 Q2 Q3) (k0_pay17 Q0 Q1 Q2 Q3) (k0_pay18 Q0 Q1 Q2 Q3)) (k0_pay28 (k0_pay16 Q0 Q1 Q2 Q3) (k0_pay17 Q0 Q1 Q2 Q3)))) (ix3 ⟨0, Nat.one_pos⟩ p q)
    = entry ⟨8, by decide⟩ (L0 (ix3 ⟨0, Nat.one_pos⟩ p q)) (L1 (ix3 ⟨0, Nat.one_pos⟩ p q)) (L2 (ix3 ⟨0, Nat.one_pos⟩ p q)) (Q0 (ix3 ⟨0, Nat.one_pos⟩ p q)) (Q1 (ix3 ⟨0, Nat.one_pos⟩ p q)) (Q2 (ix3 ⟨0, Nat.one_pos⟩ p q)) (Q3 (ix3 ⟨0, Nat.one_pos⟩ p q)) := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, add1, drop1, mulf_apply, addf_apply, subf_apply, divf_apply, maximumf_apply, broadcast_apply, sqrt_at, exp_at]
  rfl

/-! ## The block -/

/-- The output block as one function of the two input blocks: channel `ch` at `(p, q)` is covariance entry `ch` of
    the inputs' channels at `(p, q)`. -/
def blockCov (x0 : Vec Ideal S3x512x128 .f32) (x1 : Vec Ideal S4x512x128 .f32) : Vec Ideal S9x512x128 .f32 := fun y =>
  entry (y 0) (x0 (ix3 ⟨0, by decide⟩ (y 1) (y 2))) (x0 (ix3 ⟨1, by decide⟩ (y 1) (y 2))) (x0 (ix3 ⟨2, by decide⟩ (y 1) (y 2)))
    (x1 (ix3 ⟨0, by decide⟩ (y 1) (y 2))) (x1 (ix3 ⟨1, by decide⟩ (y 1) (y 2))) (x1 (ix3 ⟨2, by decide⟩ (y 1) (y 2)))
    (x1 (ix3 ⟨3, by decide⟩ (y 1) (y 2)))

/-- The seven loads read their channel's slab of the input blocks. -/
theorem ld0 (x0 : Vec Ideal S3x512x128 .f32) (p : Fin 512) (q : Fin 128) :
    View.ld x0 r0_0 (ix3 ⟨0, Nat.one_pos⟩ p q) = x0 (ix3 ⟨0, by decide⟩ p q) := congrArg x0 (chan_idx 0 (by decide) _ p q)
theorem ld1 (x0 : Vec Ideal S3x512x128 .f32) (p : Fin 512) (q : Fin 128) :
    View.ld x0 r0_1 (ix3 ⟨0, Nat.one_pos⟩ p q) = x0 (ix3 ⟨1, by decide⟩ p q) := congrArg x0 (chan_idx 1 (by decide) _ p q)
theorem ld2 (x0 : Vec Ideal S3x512x128 .f32) (p : Fin 512) (q : Fin 128) :
    View.ld x0 r0_2 (ix3 ⟨0, Nat.one_pos⟩ p q) = x0 (ix3 ⟨2, by decide⟩ p q) := congrArg x0 (chan_idx 2 (by decide) _ p q)
theorem ld3 (x1 : Vec Ideal S4x512x128 .f32) (p : Fin 512) (q : Fin 128) :
    View.ld x1 r0_3 (ix3 ⟨0, Nat.one_pos⟩ p q) = x1 (ix3 ⟨0, by decide⟩ p q) := congrArg x1 (chan_idx 0 (by decide) _ p q)
theorem ld4 (x1 : Vec Ideal S4x512x128 .f32) (p : Fin 512) (q : Fin 128) :
    View.ld x1 r0_4 (ix3 ⟨0, Nat.one_pos⟩ p q) = x1 (ix3 ⟨1, by decide⟩ p q) := congrArg x1 (chan_idx 1 (by decide) _ p q)
theorem ld5 (x1 : Vec Ideal S4x512x128 .f32) (p : Fin 512) (q : Fin 128) :
    View.ld x1 r0_5 (ix3 ⟨0, Nat.one_pos⟩ p q) = x1 (ix3 ⟨2, by decide⟩ p q) := congrArg x1 (chan_idx 2 (by decide) _ p q)
theorem ld6 (x1 : Vec Ideal S4x512x128 .f32) (p : Fin 512) (q : Fin 128) :
    View.ld x1 r0_6 (ix3 ⟨0, Nat.one_pos⟩ p q) = x1 (ix3 ⟨3, by decide⟩ p q) := congrArg x1 (chan_idx 3 (by decide) _ p q)

/-- The block function read under the rectangle of channel `c`. -/
theorem blockCov_chan (x0 : Vec Ideal S3x512x128 .f32) (x1 : Vec Ideal S4x512x128 .f32) (c : Nat) (hc : c < 9) (p : Fin 512) (q : Fin 128) :
    blockCov x0 x1 (ix3 ⟨c, hc⟩ p q) = entry ⟨c, hc⟩ (x0 (ix3 ⟨0, by decide⟩ p q)) (x0 (ix3 ⟨1, by decide⟩ p q)) (x0 (ix3 ⟨2, by decide⟩ p q))
      (x1 (ix3 ⟨0, by decide⟩ p q)) (x1 (ix3 ⟨1, by decide⟩ p q)) (x1 (ix3 ⟨2, by decide⟩ p q)) (x1 (ix3 ⟨3, by decide⟩ p q)) := rfl

end Cert.KernelIdeal.BlockValue

end
-- ==== Proof.BlockOut.lean ====
/-
  The output block after the body is the block function of the two input blocks.

  The body's nine stores each fill one channel's slab of the output block, and together they tile it. Each store's
  value, at its own position `(0, p, q)`, is the covariance entry of its channel at `(p, q)` — which is what the block
  function holds under that store's rectangle, at `(ch, p, q)`. Pieces that all agree with one function, and cover the
  block, leave that function.
-/
import proofs.«112157_j57191784513783_2_alg».proof.Proof.BlockValue

noncomputable section

namespace Cert.KernelIdeal.BlockValue

open Cert.KernelIdeal Cert.KernelIdeal.Gen Idealize.ShloMosaic Idealize.ShloMosaic.TcCoe Idealize.SL.Sem
open Idealize.ShloMosaic.ValueIdx Cert.QuatCov

/-! ## Each store under its rectangle -/

theorem piece0 (x0 : Vec Ideal S3x512x128 .f32) (x1 : Vec Ideal S4x512x128 .f32) (p : Fin 512) (q : Fin 128) :
    (k0_pay43 (k0_pay7 (View.ld x0 r0_0)) (k0_pay8 (View.ld x0 r0_1)) (k0_pay9 (View.ld x0 r0_2)) (k0_pay20 (k0_pay19 (View.ld x1 r0_3) (View.ld x1 r0_4) (View.ld x1 r0_5) (View.ld x1 r0_6))) (k0_pay21 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay22 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6)))) (ix3 ⟨0, Nat.one_pos⟩ p q)
    = blockCov x0 x1 ((r0_7 : Rect S9x512x128).emb (ix3 ⟨0, Nat.one_pos⟩ p q)) := by
  refine (chan0 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 0 (by decide) _ p q)).trans (blockCov_chan x0 x1 0 (by decide) p q)).symm

theorem piece1 (x0 : Vec Ideal S3x512x128 .f32) (x1 : Vec Ideal S4x512x128 .f32) (p : Fin 512) (q : Fin 128) :
    (k0_pay44 (k0_pay7 (View.ld x0 r0_0)) (k0_pay8 (View.ld x0 r0_1)) (k0_pay9 (View.ld x0 r0_2)) (k0_pay20 (k0_pay19 (View.ld x1 r0_3) (View.ld x1 r0_4) (View.ld x1 r0_5) (View.ld x1 r0_6))) (k0_pay21 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay22 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay23 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay24 (k0_pay16 (View.ld x1 r0_3) (View.ld x1 r0_4) (View.ld x1 r0_5) (View.ld x1 r0_6)) (k0_pay18 (View.ld x1 r0_3) (View.ld x1 r0_4) (View.ld x1 r0_5) (View.ld x1 r0_6))) (k0_pay25 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6)))) (ix3 ⟨0, Nat.one_pos⟩ p q)
    = blockCov x0 x1 ((r0_8 : Rect S9x512x128).emb (ix3 ⟨0, Nat.one_pos⟩ p q)) := by
  refine (chan1 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 1 (by decide) _ p q)).trans (blockCov_chan x0 x1 1 (by decide) p q)).symm

theorem piece2 (x0 : Vec Ideal S3x512x128 .f32) (x1 : Vec Ideal S4x512x128 .f32) (p : Fin 512) (q : Fin 128) :
    (k0_pay45 (k0_pay7 (View.ld x0 r0_0)) (k0_pay8 (View.ld x0 r0_1)) (k0_pay9 (View.ld x0 r0_2)) (k0_pay20 (k0_pay19 (View.ld x1 r0_3) (View.ld x1 r0_4) (View.ld x1 r0_5) (View.ld x1 r0_6))) (k0_pay21 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay22 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay26 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay27 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay28 (k0_pay16 (View.ld x1 r0_3) (View.ld x1 r0_4) (View.ld x1 r0_5) (View.ld x1 r0_6)) (k0_pay17 (View.ld x1 r0_3) (View.ld x1 r0_4) (View.ld x1 r0_5) (View.ld x1 r0_6)))) (ix3 ⟨0, Nat.one_pos⟩ p q)
    = blockCov x0 x1 ((r0_9 : Rect S9x512x128).emb (ix3 ⟨0, Nat.one_pos⟩ p q)) := by
  refine (chan2 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 2 (by decide) _ p q)).trans (blockCov_chan x0 x1 2 (by decide) p q)).symm

theorem piece3 (x0 : Vec Ideal S3x512x128 .f32) (x1 : Vec Ideal S4x512x128 .f32) (p : Fin 512) (q : Fin 128) :
    (k0_pay1 (k0_pay38 (k0_pay7 (View.ld x0 r0_0)) (k0_pay8 (View.ld x0 r0_1)) (k0_pay9 (View.ld x0 r0_2)) (k0_pay20 (k0_pay19 (View.ld x1 r0_3) (View.ld x1 r0_4) (View.ld x1 r0_5) (View.ld x1 r0_6))) (k0_pay21 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay22 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay23 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay24 (k0_pay16 (View.ld x1 r0_3) (View.ld x1 r0_4) (View.ld x1 r0_5) (View.ld x1 r0_6)) (k0_pay18 (View.ld x1 r0_3) (View.ld x1 r0_4) (View.ld x1 r0_5) (View.ld x1 r0_6))) (k0_pay25 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))))) (ix3 ⟨0, Nat.one_pos⟩ p q)
    = blockCov x0 x1 ((r0_10 : Rect S9x512x128).emb (ix3 ⟨0, Nat.one_pos⟩ p q)) := by
  refine (chan3 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 3 (by decide) _ p q)).trans (blockCov_chan x0 x1 3 (by decide) p q)).symm

theorem piece4 (x0 : Vec Ideal S3x512x128 .f32) (x1 : Vec Ideal S4x512x128 .f32) (p : Fin 512) (q : Fin 128) :
    (k0_pay2 (k0_pay40 (k0_pay7 (View.ld x0 r0_0)) (k0_pay8 (View.ld x0 r0_1)) (k0_pay9 (View.ld x0 r0_2)) (k0_pay23 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay24 (k0_pay16 (View.ld x1 r0_3) (View.ld x1 r0_4) (View.ld x1 r0_5) (View.ld x1 r0_6)) (k0_pay18 (View.ld x1 r0_3) (View.ld x1 r0_4) (View.ld x1 r0_5) (View.ld x1 r0_6))) (k0_pay25 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))))) (ix3 ⟨0, Nat.one_pos⟩ p q)
    = blockCov x0 x1 ((r0_11 : Rect S9x512x128).emb (ix3 ⟨0, Nat.one_pos⟩ p q)) := by
  refine (chan4 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 4 (by decide) _ p q)).trans (blockCov_chan x0 x1 4 (by decide) p q)).symm

theorem piece5 (x0 : Vec Ideal S3x512x128 .f32) (x1 : Vec Ideal S4x512x128 .f32) (p : Fin 512) (q : Fin 128) :
    (k0_pay3 (k0_pay41 (k0_pay7 (View.ld x0 r0_0)) (k0_pay8 (View.ld x0 r0_1)) (k0_pay9 (View.ld x0 r0_2)) (k0_pay23 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay24 (k0_pay16 (View.ld x1 r0_3) (View.ld x1 r0_4) (View.ld x1 r0_5) (View.ld x1 r0_6)) (k0_pay18 (View.ld x1 r0_3) (View.ld x1 r0_4) (View.ld x1 r0_5) (View.ld x1 r0_6))) (k0_pay25 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay26 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay27 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay28 (k0_pay16 (View.ld x1 r0_3) (View.ld x1 r0_4) (View.ld x1 r0_5) (View.ld x1 r0_6)) (k0_pay17 (View.ld x1 r0_3) (View.ld x1 r0_4) (View.ld x1 r0_5) (View.ld x1 r0_6))))) (ix3 ⟨0, Nat.one_pos⟩ p q)
    = blockCov x0 x1 ((r0_12 : Rect S9x512x128).emb (ix3 ⟨0, Nat.one_pos⟩ p q)) := by
  refine (chan5 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 5 (by decide) _ p q)).trans (blockCov_chan x0 x1 5 (by decide) p q)).symm

theorem piece6 (x0 : Vec Ideal S3x512x128 .f32) (x1 : Vec Ideal S4x512x128 .f32) (p : Fin 512) (q : Fin 128) :
    (k0_pay4 (k0_pay39 (k0_pay7 (View.ld x0 r0_0)) (k0_pay8 (View.ld x0 r0_1)) (k0_pay9 (View.ld x0 r0_2)) (k0_pay20 (k0_pay19 (View.ld x1 r0_3) (View.ld x1 r0_4) (View.ld x1 r0_5) (View.ld x1 r0_6))) (k0_pay21 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay22 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay26 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay27 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay28 (k0_pay16 (View.ld x1 r0_3) (View.ld x1 r0_4) (View.ld x1 r0_5) (View.ld x1 r0_6)) (k0_pay17 (View.ld x1 r0_3) (View.ld x1 r0_4) (View.ld x1 r0_5) (View.ld x1 r0_6))))) (ix3 ⟨0, Nat.one_pos⟩ p q)
    = blockCov x0 x1 ((r0_13 : Rect S9x512x128).emb (ix3 ⟨0, Nat.one_pos⟩ p q)) := by
  refine (chan6 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 6 (by decide) _ p q)).trans (blockCov_chan x0 x1 6 (by decide) p q)).symm

theorem piece7 (x0 : Vec Ideal S3x512x128 .f32) (x1 : Vec Ideal S4x512x128 .f32) (p : Fin 512) (q : Fin 128) :
    (k0_pay5 (k0_pay41 (k0_pay7 (View.ld x0 r0_0)) (k0_pay8 (View.ld x0 r0_1)) (k0_pay9 (View.ld x0 r0_2)) (k0_pay23 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay24 (k0_pay16 (View.ld x1 r0_3) (View.ld x1 r0_4) (View.ld x1 r0_5) (View.ld x1 r0_6)) (k0_pay18 (View.ld x1 r0_3) (View.ld x1 r0_4) (View.ld x1 r0_5) (View.ld x1 r0_6))) (k0_pay25 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay26 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay27 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay28 (k0_pay16 (View.ld x1 r0_3) (View.ld x1 r0_4) (View.ld x1 r0_5) (View.ld x1 r0_6)) (k0_pay17 (View.ld x1 r0_3) (View.ld x1 r0_4) (View.ld x1 r0_5) (View.ld x1 r0_6))))) (ix3 ⟨0, Nat.one_pos⟩ p q)
    = blockCov x0 x1 ((r0_14 : Rect S9x512x128).emb (ix3 ⟨0, Nat.one_pos⟩ p q)) := by
  refine (chan7 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 7 (by decide) _ p q)).trans (blockCov_chan x0 x1 7 (by decide) p q)).symm

theorem piece8 (x0 : Vec Ideal S3x512x128 .f32) (x1 : Vec Ideal S4x512x128 .f32) (p : Fin 512) (q : Fin 128) :
    (k0_pay6 (k0_pay42 (k0_pay7 (View.ld x0 r0_0)) (k0_pay8 (View.ld x0 r0_1)) (k0_pay9 (View.ld x0 r0_2)) (k0_pay26 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay27 (k0_pay15 (View.ld x1 r0_3) (View.ld x1 r0_4) (View.ld x1 r0_5) (View.ld x1 r0_6)) (k0_pay16 (View.ld x1 r0_3) (View.ld x1 r0_4) (View.ld x1 r0_5) (View.ld x1 r0_6)) (k0_pay17 (View.ld x1 r0_3) (View.ld x1 r0_4) (View.ld x1 r0_5) (View.ld x1 r0_6)) (k0_pay18 (View.ld x1 r0_3) (View.ld x1 r0_4) (View.ld x1 r0_5) (View.ld x1 r0_6))) (k0_pay28 (k0_pay16 (View.ld x1 r0_3) (View.ld x1 r0_4) (View.ld x1 r0_5) (View.ld x1 r0_6)) (k0_pay17 (View.ld x1 r0_3) (View.ld x1 r0_4) (View.ld x1 r0_5) (View.ld x1 r0_6))))) (ix3 ⟨0, Nat.one_pos⟩ p q)
    = blockCov x0 x1 ((r0_15 : Rect S9x512x128).emb (ix3 ⟨0, Nat.one_pos⟩ p q)) := by
  refine (chan8 (View.ld x0 r0_0) (View.ld x0 r0_1) (View.ld x0 r0_2) (View.ld x1 r0_3) (View.ld x1 r0_4) (View.ld x1 r0_5) (View.ld x1 r0_6) p q).trans ?_
  rw [ld0, ld1, ld2, ld3, ld4, ld5, ld6]
  exact ((congrArg (blockCov x0 x1) (chan_idx 8 (by decide) _ p q)).trans (blockCov_chan x0 x1 8 (by decide) p q)).symm

/-! ## The block -/

/-- What the body leaves in the output block: the block function of the input blocks. -/
theorem out_eq (x0 : Vec Ideal S3x512x128 .f32) (x1 : Vec Ideal S4x512x128 .f32) : out0_2 (F := Ideal) x0 x1 = blockCov x0 x1 := by
  funext y
  unfold out0_2
  refine View.canon_apply_of_pieces (blockCov x0 x1) _ ?_ y (cover0_2 _ _ _ _ _ _ _ _ _ y)
  intro pc hpc x
  simp only [List.mem_cons, List.not_mem_nil, or_false] at hpc
  rcases hpc with rfl | rfl | rfl | rfl | rfl | rfl | rfl | rfl | rfl
  all_goals obtain ⟨p, q, rfl⟩ := exists_pq x
  · exact piece8 x0 x1 p q
  · exact piece7 x0 x1 p q
  · exact piece6 x0 x1 p q
  · exact piece5 x0 x1 p q
  · exact piece4 x0 x1 p q
  · exact piece3 x0 x1 p q
  · exact piece2 x0 x1 p q
  · exact piece1 x0 x1 p q
  · exact piece0 x0 x1 p q

end Cert.KernelIdeal.BlockValue

end
-- ==== Proof.ArrayValue.lean ====
/-
  From blocks to the array: what the kernel's output array holds after the run.

  The grid has 62 points; point `t` works on rows `512 t … 512 t + 511` of each of the three arrays (all channels, all
  128 lanes), so the blocks tile the arrays. What point `t` writes back is the block function of the two input blocks;
  the input blocks are the arrays' rows `512 t + p`, so the block written is block `t` of ONE function of the two input
  arrays — at `(ch, r, l)` covariance entry `ch` of the inputs' channels at `(r, l)`. Every row lies in exactly the block
  of point `r / 512`, so the array ends holding that function everywhere.
-/
import proofs.«112157_j57191784513783_2_alg».proof.Proof.BlockOut

set_option maxRecDepth 16384

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Cert.QuatCov
open Idealize.ShloMosaic.Pipeline (Dat)

variable (m : (ℓ : Loc nD τ sig) → Buf (Elt Ideal) ℓ)

/-- The output array as one function of the two input arrays: channel `ch` at row `r`, lane `l` is covariance entry
    `ch` of the inputs' channels at `(r, l)`. -/
def arrCov (A3 : S3x31744x128.Idx → EReal) (A5 : S4x31744x128.Idx → EReal) : S9x31744x128.Idx → EReal := fun y =>
  entry (y 0) (A3 (ix3 ⟨0, by decide⟩ (y 1) (y 2))) (A3 (ix3 ⟨1, by decide⟩ (y 1) (y 2))) (A3 (ix3 ⟨2, by decide⟩ (y 1) (y 2)))
    (A5 (ix3 ⟨0, by decide⟩ (y 1) (y 2))) (A5 (ix3 ⟨1, by decide⟩ (y 1) (y 2))) (A5 (ix3 ⟨2, by decide⟩ (y 1) (y 2)))
    (A5 (ix3 ⟨3, by decide⟩ (y 1) (y 2)))

/-- The three index maps, decided over the grid: point `t` takes block `(0, t, 0)` of each array. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- Row `p` of point `t`'s block is row `512 t + p` of the array. -/
theorem row_lt (t : Fin cfg0.N) (p : Fin 512) : t.val * 512 + p.val < 31744 := by
  have ht : t.val < 62 := t.isLt
  have hp := p.isLt
  omega

/-- The first input's block at point `t` of an array `A`, read at `(ch, p, q)`: row `512 t + p` of `A`. -/
theorem read_blk0 (c : Dev nD) (A : Buf (Elt Ideal) ((c : Thread nD τ).loc (Pipeline.arrRef spec0 0))) (t : Fin cfg0.N) (ch : Fin 3) (p : Fin 512) (q : Fin 128) :
    ((cfg0.win 0).blk t).view.read (Elt Ideal) A (ix3 ch p q) = A (ix3 ch ⟨t.val * 512 + p.val, row_lt t p⟩ q) := by
  obtain ⟨e0, e1, e2, -⟩ := idx_facts t
  show A (((cfg0.win 0).blk t).view.emb (ix3 ch p q)) = A _
  refine congrArg A ?_
  funext a; apply Fin.ext
  match a with
  | ⟨0, _⟩ => show win0_0.index t (0 : Fin 3) * 3 + 1 * ch.val = ch.val; omega
  | ⟨1, _⟩ => show win0_0.index t (1 : Fin 3) * 512 + 1 * p.val = t.val * 512 + p.val; omega
  | ⟨2, _⟩ => show win0_0.index t (2 : Fin 3) * 128 + 1 * q.val = q.val; omega

/-- The second input's block at point `t` of an array `A`, read at `(ch, p, q)`. -/
theorem read_blk1 (c : Dev nD) (A : Buf (Elt Ideal) ((c : Thread nD τ).loc (Pipeline.arrRef spec0 1))) (t : Fin cfg0.N) (ch : Fin 4) (p : Fin 512) (q : Fin 128) :
    ((cfg0.win 1).blk t).view.read (Elt Ideal) A (ix3 ch p q) = A (ix3 ch ⟨t.val * 512 + p.val, row_lt t p⟩ q) := by
  obtain ⟨-, -, -, e0, e1, e2, -⟩ := idx_facts t
  show A (((cfg0.win 1).blk t).view.emb (ix3 ch p q)) = A _
  refine congrArg A ?_
  funext a; apply Fin.ext
  match a with
  | ⟨0, _⟩ => show win0_1.index t (0 : Fin 3) * 4 + 1 * ch.val = ch.val; omega
  | ⟨1, _⟩ => show win0_1.index t (1 : Fin 3) * 512 + 1 * p.val = t.val * 512 + p.val; omega
  | ⟨2, _⟩ => show win0_1.index t (2 : Fin 3) * 128 + 1 * q.val = q.val; omega

/-- Where the output's block at point `t` sits in the array. -/
theorem out_emb (t : Fin cfg0.N) (ch : Fin 9) (p : Fin 512) (q : Fin 128) :
    ((cfg0.win 2).blk t).view.emb (ix3 ch p q) = ix3 ch ⟨t.val * 512 + p.val, row_lt t p⟩ q := by
  obtain ⟨-, -, -, -, -, -, e0, e1, e2⟩ := idx_facts t
  funext a; apply Fin.ext
  match a with
  | ⟨0, _⟩ => show win0_2.index t (0 : Fin 3) * 9 + 1 * ch.val = ch.val; omega
  | ⟨1, _⟩ => show win0_2.index t (1 : Fin 3) * 512 + 1 * p.val = t.val * 512 + p.val; omega
  | ⟨2, _⟩ => show win0_2.index t (2 : Fin 3) * 128 + 1 * q.val = q.val; omega

/-- The block function of point `t`'s input blocks is point `t`'s block of the array function: both are, at
    `(ch, p, q)`, entry `ch` of the two arrays' channels at row `512 t + p`, lane `q`. -/
theorem block_of_arr (c : Dev nD) (A0 : Buf (Elt Ideal) ((c : Thread nD τ).loc (Pipeline.arrRef spec0 0)))
    (A1 : Buf (Elt Ideal) ((c : Thread nD τ).loc (Pipeline.arrRef spec0 1))) (t : Fin cfg0.N) :
    blockCov (((cfg0.win 0).blk t).view.read (Elt Ideal) A0) (((cfg0.win 1).blk t).view.read (Elt Ideal) A1)
      = ((cfg0.win 2).blk t).view.read (Elt Ideal) (arrCov A0 A1) := by
  funext j
  obtain ⟨ch, p, q, rfl⟩ : ∃ (ch : Fin 9) (p : Fin 512) (q : Fin 128), j = ix3 ch p q := ⟨j 0, j 1, j 2, eq_ix3 j⟩
  show blockCov _ _ (ix3 ch p q) = arrCov A0 A1 (((cfg0.win 2).blk t).view.emb (ix3 ch p q))
  rw [out_emb t ch p q]
  show entry ch (((cfg0.win 0).blk t).view.read (Elt Ideal) A0 (ix3 ⟨0, by decide⟩ p q)) (((cfg0.win 0).blk t).view.read (Elt Ideal) A0 (ix3 ⟨1, by decide⟩ p q))
      (((cfg0.win 0).blk t).view.read (Elt Ideal) A0 (ix3 ⟨2, by decide⟩ p q))
      (((cfg0.win 1).blk t).view.read (Elt Ideal) A1 (ix3 ⟨0, by decide⟩ p q)) (((cfg0.win 1).blk t).view.read (Elt Ideal) A1 (ix3 ⟨1, by decide⟩ p q))
      (((cfg0.win 1).blk t).view.read (Elt Ideal) A1 (ix3 ⟨2, by decide⟩ p q)) (((cfg0.win 1).blk t).view.read (Elt Ideal) A1 (ix3 ⟨3, by decide⟩ p q)) = _
  rw [read_blk0, read_blk0, read_blk0, read_blk1, read_blk1, read_blk1, read_blk1]
  rfl

/-- WHAT POINT `t` WRITES BACK is block `t` of the array function of the two input arrays as the region finds them. -/
theorem flushed_eq (c : Dev nD) (t : Fin cfg0.N) :
    (dats m 0 c).flushed 2 t = ((cfg0.win 2).blk t).view.read (Elt Ideal)
      (arrCov (V m c (Pipeline.arrRef spec0 0)) (V m c (Pipeline.arrRef spec0 1))) := by
  show (cfg0.win 2).cut (grid0.coords t) ((dats m 0 c).after 2 t) = _
  rw [after0_2]
  refine Eq.trans ?_ (block_of_arr c (V m c (Pipeline.arrRef spec0 0)) (V m c (Pipeline.arrRef spec0 1)) t)
  exact out_eq _ _

/-- An index of the array is in point `t`'s block iff each coordinate is in the block's range on its axis. -/
theorem mem_blk (t : Fin cfg0.N) (i : S9x31744x128.Idx) :
    i ∈ ((cfg0.win 2).blk t).view.set ↔ ∀ a : Fin 3, win0_2.index t a * S9x512x128.size a ≤ (i a).val ∧ (i a).val < win0_2.index t a * S9x512x128.size a + S9x512x128.size a := by
  show i ∈ ((View.whole main_call0_v6).slice (win0_2.rect t)).set ↔ _
  rw [View.set_slice_whole, Rect.mem_set_unit]
  exact Iff.rfl

/-- Every index of the array lies in the block of the point its row names: row `r` is in block `r / 512`. -/
theorem cover (i : S9x31744x128.Idx) : ∃ t : Fin cfg0.N, (cfg0.win 2).flush t = true ∧ i ∈ ((cfg0.win 2).blk t).view.set := by
  have h0 : (i 0).val < 9 := (i 0).isLt
  have h1 : (i 1).val < 31744 := (i 1).isLt
  have h2 : (i 2).val < 128 := (i 2).isLt
  have ht : (i 1).val / 512 < cfg0.N := by show (i 1).val / 512 < 62; omega
  obtain ⟨-, -, -, -, -, -, e0, e1, e2⟩ := idx_facts ⟨(i 1).val / 512, ht⟩
  refine ⟨⟨(i 1).val / 512, ht⟩, flush0_2 _, ?_⟩
  rw [mem_blk]
  intro a
  match a with
  | ⟨0, _⟩ => show win0_2.index ⟨(i 1).val / 512, ht⟩ (0 : Fin 3) * 9 ≤ (i 0).val ∧ (i 0).val < win0_2.index ⟨(i 1).val / 512, ht⟩ (0 : Fin 3) * 9 + 9; omega
  | ⟨1, _⟩ => show win0_2.index ⟨(i 1).val / 512, ht⟩ (1 : Fin 3) * 512 ≤ (i 1).val ∧ (i 1).val < win0_2.index ⟨(i 1).val / 512, ht⟩ (1 : Fin 3) * 512 + 512; rw [e1]; show (i 1).val / 512 * 512 ≤ (i 1).val ∧ (i 1).val < (i 1).val / 512 * 512 + 512; omega
  | ⟨2, _⟩ => show win0_2.index ⟨(i 1).val / 512, ht⟩ (2 : Fin 3) * 128 ≤ (i 2).val ∧ (i 2).val < win0_2.index ⟨(i 1).val / 512, ht⟩ (2 : Fin 3) * 128 + 128; omega

/-- THE ARRAY after the run: the array function of the two input arrays as the region finds them. -/
theorem final (c : Dev nD) : (dats m 0 c).arrAt 2 cfg0.N = arrCov (V m c (Pipeline.arrRef spec0 0)) (V m c (Pipeline.arrRef spec0 1)) :=
  (dats m 0 c).arrAt_eq_of_cover 2 _ (fun t _ => flushed_eq m c t) cover

end Cert.KernelIdeal.ArrayValue

end
-- ==== Proof.HostIO.lean ====
/-
  The host operations around the kernel, read at an index.

  Before the kernel each argument array [4000000, C] is padded with zero rows to 4063232 = 31744 · 128 rows,
  transposed to [C, 4063232] and folded to [C, 31744, 128]: row `n`, channel `ch` of the argument lands at
  `(ch, n / 128, n % 128)`. After the kernel the [9, 31744, 128] result is unfolded to [9, 4063232], transposed, cut back
  to its first 4000000 rows and folded to [4000000, 3, 3]: entry `(n, i, k)` of the result is the kernel's array at
  `(3 i + k, n / 128, n % 128)`. The padded rows are never read by the result.
-/
import proofs.«112157_j57191784513783_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.KernelVsHost

noncomputable section

namespace Cert.KernelIdeal.HostIO

open Cert.KernelIdeal Cert.KernelIdeal.Gen Idealize.ShloMosaic Idealize.ShloMosaic.TcCoe Idealize.SL.Sem
open Idealize.ShloMosaic.ValueIdx Idealize.ShloMosaic.StableHlo

/-! ## Before the kernel -/

/-- The kernel's first operand as the host operations build it from the first argument. -/
def scaleT (a0 : S4000000x3.Idx → EReal) : S3x31744x128.Idx → EReal :=
  shapeCast S3x31744x128 (transpose S3x4063232 [1, 0]
    (pad S4063232x3 ![0, 0] ![63232, 0] ![0, 0] a0 (sitofp (F := Ideal) .f32 (constantI S_ 32 0#32)) pads_S4000000x3_S4063232x3_0632320_000 h_S_)
    transposes_S4063232x3_S3x4063232_1_0) shapeCasts_S3x4063232_S3x31744x128

/-- The kernel's second operand as the host operations build it from the second argument. -/
def rotT (a1 : S4000000x4.Idx → EReal) : S4x31744x128.Idx → EReal :=
  shapeCast S4x31744x128 (transpose S4x4063232 [1, 0]
    (pad S4063232x4 ![0, 0] ![63232, 0] ![0, 0] a1 (sitofp (F := Ideal) .f32 (constantI S_ 32 0#32)) pads_S4000000x4_S4063232x4_0632320_000 h_S_)
    transposes_S4063232x4_S4x4063232_1_0) shapeCasts_S4x4063232_S4x31744x128

/-- Row `n`'s place in the folded layout. -/
theorem fold_lt (n : Fin 4000000) : n.val / 128 < 31744 ∧ n.val % 128 < 128 ∧ n.val < 4063232 := by
  have := n.isLt; omega

/-- The first operand at `(ch, n / 128, n % 128)` is the first argument at `(n, ch)`. -/
theorem scaleT_apply (a0 : S4000000x3.Idx → EReal) (n : Fin 4000000) (ch : Fin 3) :
    scaleT a0 (ix3 ch ⟨n.val / 128, (fold_lt n).1⟩ ⟨n.val % 128, (fold_lt n).2.1⟩) = a0 (ix2 n ch) := by
  unfold scaleT
  refine (shapeCast_apply _ _ _ (ix2 ch ⟨n.val, (fold_lt n).2.2⟩) ?_).trans ?_
  · rw [Shape.rowMajor_val_two, Shape.rowMajor_val_three]
    show ch.val * 4063232 + n.val = (ch.val * 31744 + n.val / 128) * 128 + n.val % 128
    omega
  refine (transpose_apply _ _ _ _ (ix2 ⟨n.val, (fold_lt n).2.2⟩ ch) ?_).trans ?_
  · intro b; match b with | ⟨0, _⟩ => rfl | ⟨1, _⟩ => rfl
  refine pad_apply_of_inside _ _ _ _ _ _ _ _ (ix2 n ch) ?_
  intro a; match a with
  | ⟨0, _⟩ => show n.val = 0 + n.val * (0 + 1); omega
  | ⟨1, _⟩ => show ch.val = 0 + ch.val * (0 + 1); omega

/-- The second operand at `(ch, n / 128, n % 128)` is the second argument at `(n, ch)`. -/
theorem rotT_apply (a1 : S4000000x4.Idx → EReal) (n : Fin 4000000) (ch : Fin 4) :
    rotT a1 (ix3 ch ⟨n.val / 128, (fold_lt n).1⟩ ⟨n.val % 128, (fold_lt n).2.1⟩) = a1 (ix2 n ch) := by
  unfold rotT
  refine (shapeCast_apply _ _ _ (ix2 ch ⟨n.val, (fold_lt n).2.2⟩) ?_).trans ?_
  · rw [Shape.rowMajor_val_two, Shape.rowMajor_val_three]
    show ch.val * 4063232 + n.val = (ch.val * 31744 + n.val / 128) * 128 + n.val % 128
    omega
  refine (transpose_apply _ _ _ _ (ix2 ⟨n.val, (fold_lt n).2.2⟩ ch) ?_).trans ?_
  · intro b; match b with | ⟨0, _⟩ => rfl | ⟨1, _⟩ => rfl
  refine pad_apply_of_inside _ _ _ _ _ _ _ _ (ix2 n ch) ?_
  intro a; match a with
  | ⟨0, _⟩ => show n.val = 0 + n.val * (0 + 1); omega
  | ⟨1, _⟩ => show ch.val = 0 + ch.val * (0 + 1); omega

/-! ## After the kernel -/

/-- The program's result as the host operations build it from the kernel's output array. -/
def unfoldOut (A : S9x31744x128.Idx → EReal) : S4000000x3x3.Idx → EReal :=
  shapeCast S4000000x3x3 (extractStridedSlice S4000000x9 ![0, 0]
    (transpose S4063232x9 [1, 0] (shapeCast S9x4063232 A shapeCasts_S9x31744x128_S9x4063232) transposes_S9x4063232_S4063232x9_1_0)
    slices_S4063232x9_S4000000x9_0_0) shapeCasts_S4000000x9_S4000000x3x3

/-- The channel of entry `(i, k)`. -/
theorem chan_lt (i k : Fin 3) : 3 * i.val + k.val < 9 := by have := i.isLt; have := k.isLt; omega

/-- The result at `(n, i, k)` is the kernel's array at `(3 i + k, n / 128, n % 128)`. -/
theorem unfoldOut_apply (A : S9x31744x128.Idx → EReal) (n : Fin 4000000) (i k : Fin 3) :
    unfoldOut A (ix3 n i k) = A (ix3 ⟨3 * i.val + k.val, chan_lt i k⟩ ⟨n.val / 128, (fold_lt n).1⟩ ⟨n.val % 128, (fold_lt n).2.1⟩) := by
  unfold unfoldOut
  refine (shapeCast_apply _ _ _ (ix2 n ⟨3 * i.val + k.val, chan_lt i k⟩) ?_).trans ?_
  · rw [Shape.rowMajor_val_two, Shape.rowMajor_val_three]
    show n.val * 9 + (3 * i.val + k.val) = (n.val * 3 + i.val) * 3 + k.val
    omega
  refine (extractStridedSlice_apply _ _ _ _ (ix2 ⟨n.val, (fold_lt n).2.2⟩ ⟨3 * i.val + k.val, chan_lt i k⟩) ?_).trans ?_
  · intro a; match a with
    | ⟨0, _⟩ => show n.val = 0 + n.val; omega
    | ⟨1, _⟩ => show 3 * i.val + k.val = 0 + (3 * i.val + k.val); omega
  refine (transpose_apply _ _ _ _ (ix2 ⟨3 * i.val + k.val, chan_lt i k⟩ ⟨n.val, (fold_lt n).2.2⟩) ?_).trans ?_
  · intro b; match b with | ⟨0, _⟩ => rfl | ⟨1, _⟩ => rfl
  refine shapeCast_apply _ _ _ _ ?_
  rw [Shape.rowMajor_val_two, Shape.rowMajor_val_three]
  show ((3 * i.val + k.val) * 31744 + n.val / 128) * 128 + n.val % 128 = (3 * i.val + k.val) * 4063232 + n.val
  omega

end Cert.KernelIdeal.HostIO

end
-- ==== Proof.KernelValue.lean ====
/-
  The kernel program's result.

  The run of the whole program ends with the result buffer at what the host operations after the kernel make of the
  kernel's output array; that array is the array function of the two operands; the operands are what the host
  operations before the kernel make of the two arguments. Read at `(n, i, k)`: the result is the output array at
  `(3 i + k, n / 128, n % 128)`, which is covariance entry `3 i + k` of the operands' channels at `(n / 128, n % 128)`,
  which are the arguments' row `n`. So the result is the specification's function of the arguments.
-/
import proofs.«112157_j57191784513783_2_alg».proof.Proof.ArrayValue
import proofs.«112157_j57191784513783_2_alg».proof.Proof.HostIO

noncomputable section

namespace Cert.KernelIdeal.KernelValue

open Cert.KernelIdeal Cert.KernelIdeal.Gen Cert.KernelIdeal.ArrayValue Cert.KernelIdeal.HostIO Idealize.ShloMosaic Idealize.ShloMosaic.TcCoe Idealize.SL.Sem
open Idealize.ShloMosaic.ValueIdx Idealize.ShloMosaic.StableHlo Cert.QuatCov

variable (m : (ℓ : Loc nD τ sig) → Buf (Elt Ideal) ℓ) (ρ : Dev nD → PrngReg)

/-- The first operand as the region finds it: the host operations' term of the first argument. -/
theorem operand0 (c : Dev nD) :
    (V m c (Pipeline.arrRef spec0 0) : S3x31744x128.Idx → EReal) = scaleT (m ((c : Thread nD τ).loc main_arg0)) := by
  show StableHlo.after hostOps0 (fun b => m (c, b)) (Proc.devRef .tc main_call0_v3) = _
  after_results
  simp only [TRef.toBuf, TRef.ofBuf, cast_eq]
  rfl

/-- The second operand as the region finds it: the host operations' term of the second argument. -/
theorem operand1 (c : Dev nD) :
    (V m c (Pipeline.arrRef spec0 1) : S4x31744x128.Idx → EReal) = rotT (m ((c : Thread nD τ).loc main_arg1)) := by
  show StableHlo.after hostOps0 (fun b => m (c, b)) (Proc.devRef .tc main_call0_v5) = _
  after_results
  simp only [TRef.toBuf, TRef.ofBuf, cast_eq]
  rfl

/-- The result buffer after the host operations that follow the kernel: their term of the kernel's output array. -/
theorem tail (c : Dev nD) :
    (Pipeline.afterTail₀ cfgs (dats m) 0 (V0 m) [hostOps1] c main_v0 : S4000000x3x3.Idx → EReal)
      = unfoldOut ((dats m 0 c).arrAt 2 cfg0.N) := by
  unfold Pipeline.afterTail₀
  show StableHlo.after hostOps1 _ (Proc.devRef .tc main_v0) = _
  after_results
  simp only [TRef.toBuf, TRef.ofBuf, cast_eq]
  rw [show Pipeline.withArrays (cfgs 0).spec c (V0 m c) (fun w => (dats m 0 c).arrAt w (cfgs 0).N) (Proc.devRef .tc main_call0_v6)
      = (dats m 0 c).arrAt 2 cfg0.N from Pipeline.withArrays_arr spec0 launch0.win.arr_inj c _ _ 2]
  rfl

/-- The kernel's output array is the array function of the two operands the host operations build. -/
theorem array_eq (c : Dev nD) :
    (dats m 0 c).arrAt 2 cfg0.N
      = arrCov (scaleT (m ((c : Thread nD τ).loc main_arg0))) (rotT (m ((c : Thread nD τ).loc main_arg1))) :=
  (final m c).trans (congrArg₂ arrCov (operand0 m c) (operand1 m c))

/-- The array function of the operands, unfolded by the host operations after the kernel, is the specification's
    function of the arguments. -/
theorem unfold_arr (a0 : S4000000x3.Idx → EReal) (a1 : S4000000x4.Idx → EReal) :
    unfoldOut (arrCov (scaleT a0) (rotT a1)) = result a0 a1 := by
  funext y
  obtain ⟨n, i, k, rfl⟩ : ∃ (n : Fin 4000000) (i k : Fin 3), y = ix3 n i k := ⟨y 0, y 1, y 2, eq_ix3 y⟩
  rw [unfoldOut_apply]
  show entry ⟨3 * i.val + k.val, chan_lt i k⟩
      (scaleT a0 (ix3 ⟨0, by decide⟩ ⟨n.val / 128, (fold_lt n).1⟩ ⟨n.val % 128, (fold_lt n).2.1⟩))
      (scaleT a0 (ix3 ⟨1, by decide⟩ ⟨n.val / 128, (fold_lt n).1⟩ ⟨n.val % 128, (fold_lt n).2.1⟩))
      (scaleT a0 (ix3 ⟨2, by decide⟩ ⟨n.val / 128, (fold_lt n).1⟩ ⟨n.val % 128, (fold_lt n).2.1⟩))
      (rotT a1 (ix3 ⟨0, by decide⟩ ⟨n.val / 128, (fold_lt n).1⟩ ⟨n.val % 128, (fold_lt n).2.1⟩))
      (rotT a1 (ix3 ⟨1, by decide⟩ ⟨n.val / 128, (fold_lt n).1⟩ ⟨n.val % 128, (fold_lt n).2.1⟩))
      (rotT a1 (ix3 ⟨2, by decide⟩ ⟨n.val / 128, (fold_lt n).1⟩ ⟨n.val % 128, (fold_lt n).2.1⟩))
      (rotT a1 (ix3 ⟨3, by decide⟩ ⟨n.val / 128, (fold_lt n).1⟩ ⟨n.val % 128, (fold_lt n).2.1⟩)) = _
  rw [scaleT_apply, scaleT_apply, scaleT_apply, rotT_apply, rotT_apply, rotT_apply, rotT_apply]
  rfl

/-- The result is the specification's function of the two arguments. -/
theorem result_eq (c : Dev nD) :
    (Pipeline.afterTail₀ cfgs (dats m) 0 (V0 m) [hostOps1] c main_v0 : S4000000x3x3.Idx → EReal)
      = result (m ((c : Thread nD τ).loc main_arg0)) (m ((c : Thread nD τ).loc main_arg1)) :=
  (tail m c).trans ((congrArg unfoldOut (array_eq m c)).trans (unfold_arr _ _))

/-- THE RUN: every weakly fair execution of the kernel program terminates with the result buffer at the specification's
    function of the two arguments, and the arguments unchanged. -/
theorem run : θ_run defs (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference program's result, index by index, is the covariance function of the specification.

  Each row n holds three log-scales and a quaternion. The program normalises the quaternion by its clamped norm,
  builds the nine entries of the rotation matrix as nine columns, joins them into a [N, 9] array, views it as
  [N, 3, 3], scales column b by exp of the b-th log-scale, and contracts the last axis of the result with itself.
  Read at an index (n, i, k) this is the dot product of rows i and k of M = R diag(s): the specification's entry
  3 i + k (whose rows are ordered, the matrix being symmetric).
-/
import proofs.«112157_j57191784513783_2_alg».proof.Proof.Gen.ReferenceIdeal.Read
import proofs.«112157_j57191784513783_2_alg».proof.Proof.CovSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.QuatCov

/-- The quaternion array. -/
abbrev Rot := (⟨S4000000x4, .f32⟩ : BufTy).Contents (Elt Ideal)
/-- The log-scale array. -/
abbrev Scl := (⟨S4000000x3, .f32⟩ : BufTy).Contents (Elt Ideal)

/-- Column `c` of row `n` of the quaternion array. -/
abbrev q (x1 : Rot) (n : Fin 4000000) (c : Fin 4) : EReal := x1 (ix2 n c)

/-- The reciprocal of row `n`'s clamped norm. -/
abbrev w (x1 : Rot) (n : Fin 4000000) : EReal := recip (q x1 n 0) (q x1 n 1) (q x1 n 2) (q x1 n 3)
/-- The four components of row `n`'s normalised quaternion. -/
abbrev ur (x1 : Rot) (n : Fin 4000000) : EReal := q x1 n 0 * w x1 n
abbrev ui (x1 : Rot) (n : Fin 4000000) : EReal := q x1 n 1 * w x1 n
abbrev uj (x1 : Rot) (n : Fin 4000000) : EReal := q x1 n 2 * w x1 n
abbrev uk (x1 : Rot) (n : Fin 4000000) : EReal := q x1 n 3 * w x1 n

/-! ## The clamped norm of a row -/

/-- The reduction reads row `n` at column `k`. -/
theorem idx_sumsq (n : Fin 4000000) (k : Fin 4) : idx_main_call0_v1 (ix1 n) k = ix2 n k :=
  funext fun a => by match a with | ⟨0, _⟩ => rfl | ⟨1, _⟩ => rfl

/-- The sum of squares of row `n`, started at the zero literal. -/
theorem sumsq_apply (x1 : Rot) (n : Fin 4000000) :
    val_main_call0_v1 (F := Ideal) x1 (ix1 n)
      = q x1 n 0 * q x1 n 0 + q x1 n 1 * q x1 n 1 + q x1 n 2 * q x1 n 2 + q x1 n 3 * q x1 n 3 := by
  rw [val_main_call0_v1_apply, val_main_call0_cst_apply, Ideal.ofBits_def, sum4]
  simp only [idx_sumsq, val_main_call0_v0_apply, Ideal.mulf_def]

/-- The clamped norm, read at `(n, 0)` of its one-column array. -/
theorem norm_apply (x1 : Rot) (n : Fin 4000000) (c : Fin 1) :
    val_main_v3 (F := Ideal) x1 (ix2 n c) = norm (q x1 n 0) (q x1 n 1) (q x1 n 2) (q x1 n 3) := by
  have e : idx_main_call0_v2 (ix2 n c) = ix1 n := funext fun a => by match a with | ⟨0, _⟩ => rfl
  rw [val_main_v3_apply, val_main_v1_apply, val_main_call0_v2_apply, e, sumsq_apply, val_main_v2_apply, val_main_cst_apply]
  rfl

/-- Component `c` of the normalised quaternion: the component times the reciprocal of the clamped norm. -/
theorem unit_apply (x1 : Rot) (n : Fin 4000000) (c : Fin 4) :
    val_main_v5 (F := Ideal) x1 (ix2 n c) = q x1 n c * recip (q x1 n 0) (q x1 n 1) (q x1 n 2) (q x1 n 3) := by
  have e : idx_main_v4 (ix2 n c) = ix2 n ⟨0, Nat.one_pos⟩ := funext fun a => by match a with | ⟨0, _⟩ => rfl | ⟨1, _⟩ => rfl
  rw [val_main_v5_apply, val_main_v4_apply, e, norm_apply, Ideal.hostDivf_def, div_norm]

/-! ## The four normalised components, as columns of length N -/

/-- The scalar part `r`. -/
theorem r_apply (x1 : Rot) (n : Fin 4000000) :
    val_main_v7 (F := Ideal) x1 (ix1 n) = ur x1 n := by
  have e : idx_main_v6 (idx_main_v7 (ix1 n)) = ix2 n 0 :=
    funext fun a => Fin.ext (by match a with | ⟨0, _⟩ => exact Nat.div_one _ | ⟨1, _⟩ => rfl)
  rw [val_main_v7_apply, val_main_v6_apply, e, unit_apply]

/-- The component `i`. -/
theorem i_apply (x1 : Rot) (n : Fin 4000000) :
    val_main_v9 (F := Ideal) x1 (ix1 n) = ui x1 n := by
  have e : idx_main_v8 (idx_main_v9 (ix1 n)) = ix2 n 1 :=
    funext fun a => Fin.ext (by match a with | ⟨0, _⟩ => exact Nat.div_one _ | ⟨1, _⟩ => rfl)
  rw [val_main_v9_apply, val_main_v8_apply, e, unit_apply]

/-- The component `j`. -/
theorem j_apply (x1 : Rot) (n : Fin 4000000) :
    val_main_v11 (F := Ideal) x1 (ix1 n) = uj x1 n := by
  have e : idx_main_v10 (idx_main_v11 (ix1 n)) = ix2 n 2 :=
    funext fun a => Fin.ext (by match a with | ⟨0, _⟩ => exact Nat.div_one _ | ⟨1, _⟩ => rfl)
  rw [val_main_v11_apply, val_main_v10_apply, e, unit_apply]

/-- The component `k`. -/
theorem k_apply (x1 : Rot) (n : Fin 4000000) :
    val_main_v13 (F := Ideal) x1 (ix1 n) = uk x1 n := by
  have e : idx_main_v12 (idx_main_v13 (ix1 n)) = ix2 n 3 :=
    funext fun a => Fin.ext (by match a with | ⟨0, _⟩ => exact Nat.div_one _ | ⟨1, _⟩ => rfl)
  rw [val_main_v13_apply, val_main_v12_apply, e, unit_apply]

/-! ## The nine entries of the rotation matrix, as columns of length N -/

/-- Entry 0,0 of row `n`'s rotation matrix: `1 - 2 (j² + k²)`. -/
theorem R00_apply (x1 : Rot) (n : Fin 4000000) :
    val_main_v20 (F := Ideal) x1 (ix1 n) = R00 (uj x1 n) (uk x1 n) := by
  rw [val_main_v20_apply, val_main_v19_apply, val_main_cst_1_apply, val_main_v18_apply, val_main_v17_apply, val_main_cst_0_apply, val_main_v16_apply, val_main_v14_apply, val_main_v15_apply]
  simp only [r_apply, i_apply, j_apply, k_apply, Ideal.ofBits_def, Ideal.subf_def, Ideal.mulf_def, Ideal.addf_def]
  rfl

/-- Entry 0,1 of row `n`'s rotation matrix: `2 (i j - k r)`. -/
theorem R01_apply (x1 : Rot) (n : Fin 4000000) :
    val_main_v25 (F := Ideal) x1 (ix1 n) = R01 (ur x1 n) (ui x1 n) (uj x1 n) (uk x1 n) := by
  rw [val_main_v25_apply, val_main_v24_apply, val_main_cst_2_apply, val_main_v23_apply, val_main_v21_apply, val_main_v22_apply]
  simp only [r_apply, i_apply, j_apply, k_apply, Ideal.ofBits_def, Ideal.subf_def, Ideal.mulf_def, Ideal.addf_def]
  rfl

/-- Entry 0,2 of row `n`'s rotation matrix: `2 (i k + j r)`. -/
theorem R02_apply (x1 : Rot) (n : Fin 4000000) :
    val_main_v30 (F := Ideal) x1 (ix1 n) = R02 (ur x1 n) (ui x1 n) (uj x1 n) (uk x1 n) := by
  rw [val_main_v30_apply, val_main_v29_apply, val_main_cst_3_apply, val_main_v28_apply, val_main_v26_apply, val_main_v27_apply]
  simp only [r_apply, i_apply, j_apply, k_apply, Ideal.ofBits_def, Ideal.subf_def, Ideal.mulf_def, Ideal.addf_def]
  rfl

/-- Entry 1,0 of row `n`'s rotation matrix: `2 (i j + k r)`. -/
theorem R10_apply (x1 : Rot) (n : Fin 4000000) :
    val_main_v35 (F := Ideal) x1 (ix1 n) = R10 (ur x1 n) (ui x1 n) (uj x1 n) (uk x1 n) := by
  rw [val_main_v35_apply, val_main_v34_apply, val_main_cst_4_apply, val_main_v33_apply, val_main_v31_apply, val_main_v32_apply]
  simp only [r_apply, i_apply, j_apply, k_apply, Ideal.ofBits_def, Ideal.subf_def, Ideal.mulf_def, Ideal.addf_def]
  rfl

/-- Entry 1,1 of row `n`'s rotation matrix: `1 - 2 (i² + k²)`. -/
theorem R11_apply (x1 : Rot) (n : Fin 4000000) :
    val_main_v42 (F := Ideal) x1 (ix1 n) = R11 (ui x1 n) (uk x1 n) := by
  rw [val_main_v42_apply, val_main_v41_apply, val_main_cst_6_apply, val_main_v40_apply, val_main_v39_apply, val_main_cst_5_apply, val_main_v38_apply, val_main_v36_apply, val_main_v37_apply]
  simp only [r_apply, i_apply, j_apply, k_apply, Ideal.ofBits_def, Ideal.subf_def, Ideal.mulf_def, Ideal.addf_def]
  rfl

/-- Entry 1,2 of row `n`'s rotation matrix: `2 (j k - i r)`. -/
theorem R12_apply (x1 : Rot) (n : Fin 4000000) :
    val_main_v47 (F := Ideal) x1 (ix1 n) = R12 (ur x1 n) (ui x1 n) (uj x1 n) (uk x1 n) := by
  rw [val_main_v47_apply, val_main_v46_apply, val_main_cst_7_apply, val_main_v45_apply, val_main_v43_apply, val_main_v44_apply]
  simp only [r_apply, i_apply, j_apply, k_apply, Ideal.ofBits_def, Ideal.subf_def, Ideal.mulf_def, Ideal.addf_def]
  rfl

/-- Entry 2,0 of row `n`'s rotation matrix: `2 (i k - j r)`. -/
theorem R20_apply (x1 : Rot) (n : Fin 4000000) :
    val_main_v52 (F := Ideal) x1 (ix1 n) = R20 (ur x1 n) (ui x1 n) (uj x1 n) (uk x1 n) := by
  rw [val_main_v52_apply, val_main_v51_apply, val_main_cst_8_apply, val_main_v50_apply, val_main_v48_apply, val_main_v49_apply]
  simp only [r_apply, i_apply, j_apply, k_apply, Ideal.ofBits_def, Ideal.subf_def, Ideal.mulf_def, Ideal.addf_def]
  rfl

/-- Entry 2,1 of row `n`'s rotation matrix: `2 (j k + i r)`. -/
theorem R21_apply (x1 : Rot) (n : Fin 4000000) :
    val_main_v57 (F := Ideal) x1 (ix1 n) = R21 (ur x1 n) (ui x1 n) (uj x1 n) (uk x1 n) := by
  rw [val_main_v57_apply, val_main_v56_apply, val_main_cst_9_apply, val_main_v55_apply, val_main_v53_apply, val_main_v54_apply]
  simp only [r_apply, i_apply, j_apply, k_apply, Ideal.ofBits_def, Ideal.subf_def, Ideal.mulf_def, Ideal.addf_def]
  rfl

/-- Entry 2,2 of row `n`'s rotation matrix: `1 - 2 (i² + j²)`. -/
theorem R22_apply (x1 : Rot) (n : Fin 4000000) :
    val_main_v64 (F := Ideal) x1 (ix1 n) = R22 (ui x1 n) (uj x1 n) := by
  rw [val_main_v64_apply, val_main_v63_apply, val_main_cst_11_apply, val_main_v62_apply, val_main_v61_apply, val_main_cst_10_apply, val_main_v60_apply, val_main_v58_apply, val_main_v59_apply]
  simp only [r_apply, i_apply, j_apply, k_apply, Ideal.ofBits_def, Ideal.subf_def, Ideal.mulf_def, Ideal.addf_def]
  rfl

/-! ## The nine columns joined into one array of nine columns

Column `c` of the joined array is the `c`-th piece (each piece has one column, so `c` pieces lie before it), and a
one-column piece read at `(n, 0)` is the column it was made from read at `n`. -/

/-- Column 0 of the joined array is entry 0,0 of the rotation matrix. -/
theorem col0_apply (x1 : Rot) (n : Fin 4000000) :
    val_main_v74 (F := Ideal) x1 (ix2 n (0 : Fin 9)) = R00 (uj x1 n) (uk x1 n) := by
  have e : idx_main_v65 (ix2 n (0 : Fin 1)) = ix1 n := funext fun a => by match a with | ⟨0, _⟩ => rfl
  have h : val_main_v74 (F := Ideal) x1 (ix2 n (0 : Fin 9)) = val_main_v65 (F := Ideal) x1 (ix2 n (0 : Fin 1)) := by
    unfold val_main_v74
    exact concatenate_apply_piece (1 : Fin S4000000x9.rank) _ _ (ix2 n (0 : Fin 9)) 0 (by simp) S4000000x1
      (val_main_v65 (F := Ideal) x1) rfl rfl 0 rfl (ix2 n (0 : Fin 1))
      (fun b hb => by match b with | ⟨0, _⟩ => rfl | ⟨1, _⟩ => exact (hb (Fin.ext rfl)).elim) rfl
  rw [h, val_main_v65_apply, e, R00_apply]

/-- Column 1 of the joined array is entry 0,1 of the rotation matrix. -/
theorem col1_apply (x1 : Rot) (n : Fin 4000000) :
    val_main_v74 (F := Ideal) x1 (ix2 n (1 : Fin 9)) = R01 (ur x1 n) (ui x1 n) (uj x1 n) (uk x1 n) := by
  have e : idx_main_v66 (ix2 n (0 : Fin 1)) = ix1 n := funext fun a => by match a with | ⟨0, _⟩ => rfl
  have h : val_main_v74 (F := Ideal) x1 (ix2 n (1 : Fin 9)) = val_main_v66 (F := Ideal) x1 (ix2 n (0 : Fin 1)) := by
    unfold val_main_v74
    exact concatenate_apply_piece (1 : Fin S4000000x9.rank) _ _ (ix2 n (1 : Fin 9)) 1 (by simp) S4000000x1
      (val_main_v66 (F := Ideal) x1) rfl rfl 1 rfl (ix2 n (0 : Fin 1))
      (fun b hb => by match b with | ⟨0, _⟩ => rfl | ⟨1, _⟩ => exact (hb (Fin.ext rfl)).elim) rfl
  rw [h, val_main_v66_apply, e, R01_apply]

/-- Column 2 of the joined array is entry 0,2 of the rotation matrix. -/
theorem col2_apply (x1 : Rot) (n : Fin 4000000) :
    val_main_v74 (F := Ideal) x1 (ix2 n (2 : Fin 9)) = R02 (ur x1 n) (ui x1 n) (uj x1 n) (uk x1 n) := by
  have e : idx_main_v67 (ix2 n (0 : Fin 1)) = ix1 n := funext fun a => by match a with | ⟨0, _⟩ => rfl
  have h : val_main_v74 (F := Ideal) x1 (ix2 n (2 : Fin 9)) = val_main_v67 (F := Ideal) x1 (ix2 n (0 : Fin 1)) := by
    unfold val_main_v74
    exact concatenate_apply_piece (1 : Fin S4000000x9.rank) _ _ (ix2 n (2 : Fin 9)) 2 (by simp) S4000000x1
      (val_main_v67 (F := Ideal) x1) rfl rfl 2 rfl (ix2 n (0 : Fin 1))
      (fun b hb => by match b with | ⟨0, _⟩ => rfl | ⟨1, _⟩ => exact (hb (Fin.ext rfl)).elim) rfl
  rw [h, val_main_v67_apply, e, R02_apply]

/-- Column 3 of the joined array is entry 1,0 of the rotation matrix. -/
theorem col3_apply (x1 : Rot) (n : Fin 4000000) :
    val_main_v74 (F := Ideal) x1 (ix2 n (3 : Fin 9)) = R10 (ur x1 n) (ui x1 n) (uj x1 n) (uk x1 n) := by
  have e : idx_main_v68 (ix2 n (0 : Fin 1)) = ix1 n := funext fun a => by match a with | ⟨0, _⟩ => rfl
  have h : val_main_v74 (F := Ideal) x1 (ix2 n (3 : Fin 9)) = val_main_v68 (F := Ideal) x1 (ix2 n (0 : Fin 1)) := by
    unfold val_main_v74
    exact concatenate_apply_piece (1 : Fin S4000000x9.rank) _ _ (ix2 n (3 : Fin 9)) 3 (by simp) S4000000x1
      (val_main_v68 (F := Ideal) x1) rfl rfl 3 rfl (ix2 n (0 : Fin 1))
      (fun b hb => by match b with | ⟨0, _⟩ => rfl | ⟨1, _⟩ => exact (hb (Fin.ext rfl)).elim) rfl
  rw [h, val_main_v68_apply, e, R10_apply]

/-- Column 4 of the joined array is entry 1,1 of the rotation matrix. -/
theorem col4_apply (x1 : Rot) (n : Fin 4000000) :
    val_main_v74 (F := Ideal) x1 (ix2 n (4 : Fin 9)) = R11 (ui x1 n) (uk x1 n) := by
  have e : idx_main_v69 (ix2 n (0 : Fin 1)) = ix1 n := funext fun a => by match a with | ⟨0, _⟩ => rfl
  have h : val_main_v74 (F := Ideal) x1 (ix2 n (4 : Fin 9)) = val_main_v69 (F := Ideal) x1 (ix2 n (0 : Fin 1)) := by
    unfold val_main_v74
    exact concatenate_apply_piece (1 : Fin S4000000x9.rank) _ _ (ix2 n (4 : Fin 9)) 4 (by simp) S4000000x1
      (val_main_v69 (F := Ideal) x1) rfl rfl 4 rfl (ix2 n (0 : Fin 1))
      (fun b hb => by match b with | ⟨0, _⟩ => rfl | ⟨1, _⟩ => exact (hb (Fin.ext rfl)).elim) rfl
  rw [h, val_main_v69_apply, e, R11_apply]

/-- Column 5 of the joined array is entry 1,2 of the rotation matrix. -/
theorem col5_apply (x1 : Rot) (n : Fin 4000000) :
    val_main_v74 (F := Ideal) x1 (ix2 n (5 : Fin 9)) = R12 (ur x1 n) (ui x1 n) (uj x1 n) (uk x1 n) := by
  have e : idx_main_v70 (ix2 n (0 : Fin 1)) = ix1 n := funext fun a => by match a with | ⟨0, _⟩ => rfl
  have h : val_main_v74 (F := Ideal) x1 (ix2 n (5 : Fin 9)) = val_main_v70 (F := Ideal) x1 (ix2 n (0 : Fin 1)) := by
    unfold val_main_v74
    exact concatenate_apply_piece (1 : Fin S4000000x9.rank) _ _ (ix2 n (5 : Fin 9)) 5 (by simp) S4000000x1
      (val_main_v70 (F := Ideal) x1) rfl rfl 5 rfl (ix2 n (0 : Fin 1))
      (fun b hb => by match b with | ⟨0, _⟩ => rfl | ⟨1, _⟩ => exact (hb (Fin.ext rfl)).elim) rfl
  rw [h, val_main_v70_apply, e, R12_apply]

/-- Column 6 of the joined array is entry 2,0 of the rotation matrix. -/
theorem col6_apply (x1 : Rot) (n : Fin 4000000) :
    val_main_v74 (F := Ideal) x1 (ix2 n (6 : Fin 9)) = R20 (ur x1 n) (ui x1 n) (uj x1 n) (uk x1 n) := by
  have e : idx_main_v71 (ix2 n (0 : Fin 1)) = ix1 n := funext fun a => by match a with | ⟨0, _⟩ => rfl
  have h : val_main_v74 (F := Ideal) x1 (ix2 n (6 : Fin 9)) = val_main_v71 (F := Ideal) x1 (ix2 n (0 : Fin 1)) := by
    unfold val_main_v74
    exact concatenate_apply_piece (1 : Fin S4000000x9.rank) _ _ (ix2 n (6 : Fin 9)) 6 (by simp) S4000000x1
      (val_main_v71 (F := Ideal) x1) rfl rfl 6 rfl (ix2 n (0 : Fin 1))
      (fun b hb => by match b with | ⟨0, _⟩ => rfl | ⟨1, _⟩ => exact (hb (Fin.ext rfl)).elim) rfl
  rw [h, val_main_v71_apply, e, R20_apply]

/-- Column 7 of the joined array is entry 2,1 of the rotation matrix. -/
theorem col7_apply (x1 : Rot) (n : Fin 4000000) :
    val_main_v74 (F := Ideal) x1 (ix2 n (7 : Fin 9)) = R21 (ur x1 n) (ui x1 n) (uj x1 n) (uk x1 n) := by
  have e : idx_main_v72 (ix2 n (0 : Fin 1)) = ix1 n := funext fun a => by match a with | ⟨0, _⟩ => rfl
  have h : val_main_v74 (F := Ideal) x1 (ix2 n (7 : Fin 9)) = val_main_v72 (F := Ideal) x1 (ix2 n (0 : Fin 1)) := by
    unfold val_main_v74
    exact concatenate_apply_piece (1 : Fin S4000000x9.rank) _ _ (ix2 n (7 : Fin 9)) 7 (by simp) S4000000x1
      (val_main_v72 (F := Ideal) x1) rfl rfl 7 rfl (ix2 n (0 : Fin 1))
      (fun b hb => by match b with | ⟨0, _⟩ => rfl | ⟨1, _⟩ => exact (hb (Fin.ext rfl)).elim) rfl
  rw [h, val_main_v72_apply, e, R21_apply]

/-- Column 8 of the joined array is entry 2,2 of the rotation matrix. -/
theorem col8_apply (x1 : Rot) (n : Fin 4000000) :
    val_main_v74 (F := Ideal) x1 (ix2 n (8 : Fin 9)) = R22 (ui x1 n) (uj x1 n) := by
  have e : idx_main_v73 (ix2 n (0 : Fin 1)) = ix1 n := funext fun a => by match a with | ⟨0, _⟩ => rfl
  have h : val_main_v74 (F := Ideal) x1 (ix2 n (8 : Fin 9)) = val_main_v73 (F := Ideal) x1 (ix2 n (0 : Fin 1)) := by
    unfold val_main_v74
    exact concatenate_apply_piece (1 : Fin S4000000x9.rank) _ _ (ix2 n (8 : Fin 9)) 8 (by simp) S4000000x1
      (val_main_v73 (F := Ideal) x1) rfl rfl 8 rfl (ix2 n (0 : Fin 1))
      (fun b hb => by match b with | ⟨0, _⟩ => rfl | ⟨1, _⟩ => exact (hb (Fin.ext rfl)).elim) rfl
  rw [h, val_main_v73_apply, e, R22_apply]

/-! ## The scaled matrix M = R diag(exp a), entry by entry

The joined array viewed as [N, 3, 3] has at `(n, a, b)` its column `3 a + b`; the scale factor there is `exp` of
log-scale `b` of row `n`. -/

/-- Entry 0,0 of M. -/
theorem M00_apply (x0 : Scl) (x1 : Rot) (n : Fin 4000000) :
    val_main_v78 (F := Ideal) x0 x1 (ix3 n (0 : Fin 3) (0 : Fin 3))
      = R00 (uj x1 n) (uk x1 n) * Ideal.exp (x0 (ix2 n (0 : Fin 3))) := by
  have e1 : idx_main_v75 (ix3 n (0 : Fin 3) (0 : Fin 3)) = ix2 n (0 : Fin 9) :=
    funext fun d => Fin.ext (by
      match d with
      | ⟨0, _⟩ => show ((n.val * 3 + 0) * 3 + 0) / 9 = n.val; omega
      | ⟨1, _⟩ => show ((n.val * 3 + 0) * 3 + 0) % 9 = 0; omega)
  have e2 : idx_main_v76 (idx_main_v77 (ix3 n (0 : Fin 3) (0 : Fin 3))) = ix2 n (0 : Fin 3) :=
    funext fun d => by match d with | ⟨0, _⟩ => rfl | ⟨1, _⟩ => rfl
  rw [val_main_v78_apply, val_main_v75_apply, e1, col0_apply, val_main_v77_apply, val_main_v76_apply, e2,
    val_main_v0_apply, Ideal.hostUnary_exp_def, Ideal.mulf_def]

/-- Entry 0,1 of M. -/
theorem M01_apply (x0 : Scl) (x1 : Rot) (n : Fin 4000000) :
    val_main_v78 (F := Ideal) x0 x1 (ix3 n (0 : Fin 3) (1 : Fin 3))
      = R01 (ur x1 n) (ui x1 n) (uj x1 n) (uk x1 n) * Ideal.exp (x0 (ix2 n (1 : Fin 3))) := by
  have e1 : idx_main_v75 (ix3 n (0 : Fin 3) (1 : Fin 3)) = ix2 n (1 : Fin 9) :=
    funext fun d => Fin.ext (by
      match d with
      | ⟨0, _⟩ => show ((n.val * 3 + 0) * 3 + 1) / 9 = n.val; omega
      | ⟨1, _⟩ => show ((n.val * 3 + 0) * 3 + 1) % 9 = 1; omega)
  have e2 : idx_main_v76 (idx_main_v77 (ix3 n (0 : Fin 3) (1 : Fin 3))) = ix2 n (1 : Fin 3) :=
    funext fun d => by match d with | ⟨0, _⟩ => rfl | ⟨1, _⟩ => rfl
  rw [val_main_v78_apply, val_main_v75_apply, e1, col1_apply, val_main_v77_apply, val_main_v76_apply, e2,
    val_main_v0_apply, Ideal.hostUnary_exp_def, Ideal.mulf_def]

/-- Entry 0,2 of M. -/
theorem M02_apply (x0 : Scl) (x1 : Rot) (n : Fin 4000000) :
    val_main_v78 (F := Ideal) x0 x1 (ix3 n (0 : Fin 3) (2 : Fin 3))
      = R02 (ur x1 n) (ui x1 n) (uj x1 n) (uk x1 n) * Ideal.exp (x0 (ix2 n (2 : Fin 3))) := by
  have e1 : idx_main_v75 (ix3 n (0 : Fin 3) (2 : Fin 3)) = ix2 n (2 : Fin 9) :=
    funext fun d => Fin.ext (by
      match d with
      | ⟨0, _⟩ => show ((n.val * 3 + 0) * 3 + 2) / 9 = n.val; omega
      | ⟨1, _⟩ => show ((n.val * 3 + 0) * 3 + 2) % 9 = 2; omega)
  have e2 : idx_main_v76 (idx_main_v77 (ix3 n (0 : Fin 3) (2 : Fin 3))) = ix2 n (2 : Fin 3) :=
    funext fun d => by match d with | ⟨0, _⟩ => rfl | ⟨1, _⟩ => rfl
  rw [val_main_v78_apply, val_main_v75_apply, e1, col2_apply, val_main_v77_apply, val_main_v76_apply, e2,
    val_main_v0_apply, Ideal.hostUnary_exp_def, Ideal.mulf_def]

/-- Entry 1,0 of M. -/
theorem M10_apply (x0 : Scl) (x1 : Rot) (n : Fin 4000000) :
    val_main_v78 (F := Ideal) x0 x1 (ix3 n (1 : Fin 3) (0 : Fin 3))
      = R10 (ur x1 n) (ui x1 n) (uj x1 n) (uk x1 n) * Ideal.exp (x0 (ix2 n (0 : Fin 3))) := by
  have e1 : idx_main_v75 (ix3 n (1 : Fin 3) (0 : Fin 3)) = ix2 n (3 : Fin 9) :=
    funext fun d => Fin.ext (by
      match d with
      | ⟨0, _⟩ => show ((n.val * 3 + 1) * 3 + 0) / 9 = n.val; omega
      | ⟨1, _⟩ => show ((n.val * 3 + 1) * 3 + 0) % 9 = 3; omega)
  have e2 : idx_main_v76 (idx_main_v77 (ix3 n (1 : Fin 3) (0 : Fin 3))) = ix2 n (0 : Fin 3) :=
    funext fun d => by match d with | ⟨0, _⟩ => rfl | ⟨1, _⟩ => rfl
  rw [val_main_v78_apply, val_main_v75_apply, e1, col3_apply, val_main_v77_apply, val_main_v76_apply, e2,
    val_main_v0_apply, Ideal.hostUnary_exp_def, Ideal.mulf_def]

/-- Entry 1,1 of M. -/
theorem M11_apply (x0 : Scl) (x1 : Rot) (n : Fin 4000000) :
    val_main_v78 (F := Ideal) x0 x1 (ix3 n (1 : Fin 3) (1 : Fin 3))
      = R11 (ui x1 n) (uk x1 n) * Ideal.exp (x0 (ix2 n (1 : Fin 3))) := by
  have e1 : idx_main_v75 (ix3 n (1 : Fin 3) (1 : Fin 3)) = ix2 n (4 : Fin 9) :=
    funext fun d => Fin.ext (by
      match d with
      | ⟨0, _⟩ => show ((n.val * 3 + 1) * 3 + 1) / 9 = n.val; omega
      | ⟨1, _⟩ => show ((n.val * 3 + 1) * 3 + 1) % 9 = 4; omega)
  have e2 : idx_main_v76 (idx_main_v77 (ix3 n (1 : Fin 3) (1 : Fin 3))) = ix2 n (1 : Fin 3) :=
    funext fun d => by match d with | ⟨0, _⟩ => rfl | ⟨1, _⟩ => rfl
  rw [val_main_v78_apply, val_main_v75_apply, e1, col4_apply, val_main_v77_apply, val_main_v76_apply, e2,
    val_main_v0_apply, Ideal.hostUnary_exp_def, Ideal.mulf_def]

/-- Entry 1,2 of M. -/
theorem M12_apply (x0 : Scl) (x1 : Rot) (n : Fin 4000000) :
    val_main_v78 (F := Ideal) x0 x1 (ix3 n (1 : Fin 3) (2 : Fin 3))
      = R12 (ur x1 n) (ui x1 n) (uj x1 n) (uk x1 n) * Ideal.exp (x0 (ix2 n (2 : Fin 3))) := by
  have e1 : idx_main_v75 (ix3 n (1 : Fin 3) (2 : Fin 3)) = ix2 n (5 : Fin 9) :=
    funext fun d => Fin.ext (by
      match d with
      | ⟨0, _⟩ => show ((n.val * 3 + 1) * 3 + 2) / 9 = n.val; omega
      | ⟨1, _⟩ => show ((n.val * 3 + 1) * 3 + 2) % 9 = 5; omega)
  have e2 : idx_main_v76 (idx_main_v77 (ix3 n (1 : Fin 3) (2 : Fin 3))) = ix2 n (2 : Fin 3) :=
    funext fun d => by match d with | ⟨0, _⟩ => rfl | ⟨1, _⟩ => rfl
  rw [val_main_v78_apply, val_main_v75_apply, e1, col5_apply, val_main_v77_apply, val_main_v76_apply, e2,
    val_main_v0_apply, Ideal.hostUnary_exp_def, Ideal.mulf_def]

/-- Entry 2,0 of M. -/
theorem M20_apply (x0 : Scl) (x1 : Rot) (n : Fin 4000000) :
    val_main_v78 (F := Ideal) x0 x1 (ix3 n (2 : Fin 3) (0 : Fin 3))
      = R20 (ur x1 n) (ui x1 n) (uj x1 n) (uk x1 n) * Ideal.exp (x0 (ix2 n (0 : Fin 3))) := by
  have e1 : idx_main_v75 (ix3 n (2 : Fin 3) (0 : Fin 3)) = ix2 n (6 : Fin 9) :=
    funext fun d => Fin.ext (by
      match d with
      | ⟨0, _⟩ => show ((n.val * 3 + 2) * 3 + 0) / 9 = n.val; omega
      | ⟨1, _⟩ => show ((n.val * 3 + 2) * 3 + 0) % 9 = 6; omega)
  have e2 : idx_main_v76 (idx_main_v77 (ix3 n (2 : Fin 3) (0 : Fin 3))) = ix2 n (0 : Fin 3) :=
    funext fun d => by match d with | ⟨0, _⟩ => rfl | ⟨1, _⟩ => rfl
  rw [val_main_v78_apply, val_main_v75_apply, e1, col6_apply, val_main_v77_apply, val_main_v76_apply, e2,
    val_main_v0_apply, Ideal.hostUnary_exp_def, Ideal.mulf_def]

/-- Entry 2,1 of M. -/
theorem M21_apply (x0 : Scl) (x1 : Rot) (n : Fin 4000000) :
    val_main_v78 (F := Ideal) x0 x1 (ix3 n (2 : Fin 3) (1 : Fin 3))
      = R21 (ur x1 n) (ui x1 n) (uj x1 n) (uk x1 n) * Ideal.exp (x0 (ix2 n (1 : Fin 3))) := by
  have e1 : idx_main_v75 (ix3 n (2 : Fin 3) (1 : Fin 3)) = ix2 n (7 : Fin 9) :=
    funext fun d => Fin.ext (by
      match d with
      | ⟨0, _⟩ => show ((n.val * 3 + 2) * 3 + 1) / 9 = n.val; omega
      | ⟨1, _⟩ => show ((n.val * 3 + 2) * 3 + 1) % 9 = 7; omega)
  have e2 : idx_main_v76 (idx_main_v77 (ix3 n (2 : Fin 3) (1 : Fin 3))) = ix2 n (1 : Fin 3) :=
    funext fun d => by match d with | ⟨0, _⟩ => rfl | ⟨1, _⟩ => rfl
  rw [val_main_v78_apply, val_main_v75_apply, e1, col7_apply, val_main_v77_apply, val_main_v76_apply, e2,
    val_main_v0_apply, Ideal.hostUnary_exp_def, Ideal.mulf_def]

/-- Entry 2,2 of M. -/
theorem M22_apply (x0 : Scl) (x1 : Rot) (n : Fin 4000000) :
    val_main_v78 (F := Ideal) x0 x1 (ix3 n (2 : Fin 3) (2 : Fin 3))
      = R22 (ui x1 n) (uj x1 n) * Ideal.exp (x0 (ix2 n (2 : Fin 3))) := by
  have e1 : idx_main_v75 (ix3 n (2 : Fin 3) (2 : Fin 3)) = ix2 n (8 : Fin 9) :=
    funext fun d => Fin.ext (by
      match d with
      | ⟨0, _⟩ => show ((n.val * 3 + 2) * 3 + 2) / 9 = n.val; omega
      | ⟨1, _⟩ => show ((n.val * 3 + 2) * 3 + 2) % 9 = 8; omega)
  have e2 : idx_main_v76 (idx_main_v77 (ix3 n (2 : Fin 3) (2 : Fin 3))) = ix2 n (2 : Fin 3) :=
    funext fun d => by match d with | ⟨0, _⟩ => rfl | ⟨1, _⟩ => rfl
  rw [val_main_v78_apply, val_main_v75_apply, e1, col8_apply, val_main_v77_apply, val_main_v76_apply, e2,
    val_main_v0_apply, Ideal.hostUnary_exp_def, Ideal.mulf_def]

/-! ## The contraction: entry (i, k) of the result is the dot product of rows i and k of M -/

/-- The result at `(n, 0, 0)`. -/
theorem res00 (x0 : Scl) (x1 : Rot) (n : Fin 4000000) :
    val_main_v79 (F := Ideal) x0 x1 (ix3 n (0 : Fin 3) (0 : Fin 3)) = result x0 x1 (ix3 n (0 : Fin 3) (0 : Fin 3)) := by
  have el : ∀ k : Fin 3, lidx_main_v79 (ix3 n (0 : Fin 3) (0 : Fin 3)) k = ix3 n (0 : Fin 3) k :=
    fun k => funext fun d => by match d with | ⟨0, _⟩ => rfl | ⟨1, _⟩ => rfl | ⟨2, _⟩ => rfl
  have er : ∀ k : Fin 3, ridx_main_v79 (ix3 n (0 : Fin 3) (0 : Fin 3)) k = ix3 n (0 : Fin 3) k :=
    fun k => funext fun d => by match d with | ⟨0, _⟩ => rfl | ⟨1, _⟩ => rfl | ⟨2, _⟩ => rfl
  rw [val_main_v79_apply, sum3]
  simp only [el, er, M00_apply, M01_apply, M02_apply]
  rfl

/-- The result at `(n, 0, 1)`. -/
theorem res01 (x0 : Scl) (x1 : Rot) (n : Fin 4000000) :
    val_main_v79 (F := Ideal) x0 x1 (ix3 n (0 : Fin 3) (1 : Fin 3)) = result x0 x1 (ix3 n (0 : Fin 3) (1 : Fin 3)) := by
  have el : ∀ k : Fin 3, lidx_main_v79 (ix3 n (0 : Fin 3) (1 : Fin 3)) k = ix3 n (0 : Fin 3) k :=
    fun k => funext fun d => by match d with | ⟨0, _⟩ => rfl | ⟨1, _⟩ => rfl | ⟨2, _⟩ => rfl
  have er : ∀ k : Fin 3, ridx_main_v79 (ix3 n (0 : Fin 3) (1 : Fin 3)) k = ix3 n (1 : Fin 3) k :=
    fun k => funext fun d => by match d with | ⟨0, _⟩ => rfl | ⟨1, _⟩ => rfl | ⟨2, _⟩ => rfl
  rw [val_main_v79_apply, sum3]
  simp only [el, er, M00_apply, M10_apply, M01_apply, M11_apply, M02_apply, M12_apply]
  rfl

/-- The result at `(n, 0, 2)`. -/
theorem res02 (x0 : Scl) (x1 : Rot) (n : Fin 4000000) :
    val_main_v79 (F := Ideal) x0 x1 (ix3 n (0 : Fin 3) (2 : Fin 3)) = result x0 x1 (ix3 n (0 : Fin 3) (2 : Fin 3)) := by
  have el : ∀ k : Fin 3, lidx_main_v79 (ix3 n (0 : Fin 3) (2 : Fin 3)) k = ix3 n (0 : Fin 3) k :=
    fun k => funext fun d => by match d with | ⟨0, _⟩ => rfl | ⟨1, _⟩ => rfl | ⟨2, _⟩ => rfl
  have er : ∀ k : Fin 3, ridx_main_v79 (ix3 n (0 : Fin 3) (2 : Fin 3)) k = ix3 n (2 : Fin 3) k :=
    fun k => funext fun d => by match d with | ⟨0, _⟩ => rfl | ⟨1, _⟩ => rfl | ⟨2, _⟩ => rfl
  rw [val_main_v79_apply, sum3]
  simp only [el, er, M00_apply, M20_apply, M01_apply, M21_apply, M02_apply, M22_apply]
  rfl

/-- The result at `(n, 1, 0)`: below the diagonal the program's rows come in the other order. -/
theorem res10 (x0 : Scl) (x1 : Rot) (n : Fin 4000000) :
    val_main_v79 (F := Ideal) x0 x1 (ix3 n (1 : Fin 3) (0 : Fin 3)) = result x0 x1 (ix3 n (1 : Fin 3) (0 : Fin 3)) := by
  have el : ∀ k : Fin 3, lidx_main_v79 (ix3 n (1 : Fin 3) (0 : Fin 3)) k = ix3 n (1 : Fin 3) k :=
    fun k => funext fun d => by match d with | ⟨0, _⟩ => rfl | ⟨1, _⟩ => rfl | ⟨2, _⟩ => rfl
  have er : ∀ k : Fin 3, ridx_main_v79 (ix3 n (1 : Fin 3) (0 : Fin 3)) k = ix3 n (0 : Fin 3) k :=
    fun k => funext fun d => by match d with | ⟨0, _⟩ => rfl | ⟨1, _⟩ => rfl | ⟨2, _⟩ => rfl
  rw [val_main_v79_apply, sum3]
  simp only [el, er, M10_apply, M00_apply, M11_apply, M01_apply, M12_apply, M02_apply]
  exact dot3_comm _ _ _ _ _ _

/-- The result at `(n, 1, 1)`. -/
theorem res11 (x0 : Scl) (x1 : Rot) (n : Fin 4000000) :
    val_main_v79 (F := Ideal) x0 x1 (ix3 n (1 : Fin 3) (1 : Fin 3)) = result x0 x1 (ix3 n (1 : Fin 3) (1 : Fin 3)) := by
  have el : ∀ k : Fin 3, lidx_main_v79 (ix3 n (1 : Fin 3) (1 : Fin 3)) k = ix3 n (1 : Fin 3) k :=
    fun k => funext fun d => by match d with | ⟨0, _⟩ => rfl | ⟨1, _⟩ => rfl | ⟨2, _⟩ => rfl
  have er : ∀ k : Fin 3, ridx_main_v79 (ix3 n (1 : Fin 3) (1 : Fin 3)) k = ix3 n (1 : Fin 3) k :=
    fun k => funext fun d => by match d with | ⟨0, _⟩ => rfl | ⟨1, _⟩ => rfl | ⟨2, _⟩ => rfl
  rw [val_main_v79_apply, sum3]
  simp only [el, er, M10_apply, M11_apply, M12_apply]
  rfl

/-- The result at `(n, 1, 2)`. -/
theorem res12 (x0 : Scl) (x1 : Rot) (n : Fin 4000000) :
    val_main_v79 (F := Ideal) x0 x1 (ix3 n (1 : Fin 3) (2 : Fin 3)) = result x0 x1 (ix3 n (1 : Fin 3) (2 : Fin 3)) := by
  have el : ∀ k : Fin 3, lidx_main_v79 (ix3 n (1 : Fin 3) (2 : Fin 3)) k = ix3 n (1 : Fin 3) k :=
    fun k => funext fun d => by match d with | ⟨0, _⟩ => rfl | ⟨1, _⟩ => rfl | ⟨2, _⟩ => rfl
  have er : ∀ k : Fin 3, ridx_main_v79 (ix3 n (1 : Fin 3) (2 : Fin 3)) k = ix3 n (2 : Fin 3) k :=
    fun k => funext fun d => by match d with | ⟨0, _⟩ => rfl | ⟨1, _⟩ => rfl | ⟨2, _⟩ => rfl
  rw [val_main_v79_apply, sum3]
  simp only [el, er, M10_apply, M20_apply, M11_apply, M21_apply, M12_apply, M22_apply]
  rfl

/-- The result at `(n, 2, 0)`: below the diagonal the program's rows come in the other order. -/
theorem res20 (x0 : Scl) (x1 : Rot) (n : Fin 4000000) :
    val_main_v79 (F := Ideal) x0 x1 (ix3 n (2 : Fin 3) (0 : Fin 3)) = result x0 x1 (ix3 n (2 : Fin 3) (0 : Fin 3)) := by
  have el : ∀ k : Fin 3, lidx_main_v79 (ix3 n (2 : Fin 3) (0 : Fin 3)) k = ix3 n (2 : Fin 3) k :=
    fun k => funext fun d => by match d with | ⟨0, _⟩ => rfl | ⟨1, _⟩ => rfl | ⟨2, _⟩ => rfl
  have er : ∀ k : Fin 3, ridx_main_v79 (ix3 n (2 : Fin 3) (0 : Fin 3)) k = ix3 n (0 : Fin 3) k :=
    fun k => funext fun d => by match d with | ⟨0, _⟩ => rfl | ⟨1, _⟩ => rfl | ⟨2, _⟩ => rfl
  rw [val_main_v79_apply, sum3]
  simp only [el, er, M20_apply, M00_apply, M21_apply, M01_apply, M22_apply, M02_apply]
  exact dot3_comm _ _ _ _ _ _

/-- The result at `(n, 2, 1)`: below the diagonal the program's rows come in the other order. -/
theorem res21 (x0 : Scl) (x1 : Rot) (n : Fin 4000000) :
    val_main_v79 (F := Ideal) x0 x1 (ix3 n (2 : Fin 3) (1 : Fin 3)) = result x0 x1 (ix3 n (2 : Fin 3) (1 : Fin 3)) := by
  have el : ∀ k : Fin 3, lidx_main_v79 (ix3 n (2 : Fin 3) (1 : Fin 3)) k = ix3 n (2 : Fin 3) k :=
    fun k => funext fun d => by match d with | ⟨0, _⟩ => rfl | ⟨1, _⟩ => rfl | ⟨2, _⟩ => rfl
  have er : ∀ k : Fin 3, ridx_main_v79 (ix3 n (2 : Fin 3) (1 : Fin 3)) k = ix3 n (1 : Fin 3) k :=
    fun k => funext fun d => by match d with | ⟨0, _⟩ => rfl | ⟨1, _⟩ => rfl | ⟨2, _⟩ => rfl
  rw [val_main_v79_apply, sum3]
  simp only [el, er, M20_apply, M10_apply, M21_apply, M11_apply, M22_apply, M12_apply]
  exact dot3_comm _ _ _ _ _ _

/-- The result at `(n, 2, 2)`. -/
theorem res22 (x0 : Scl) (x1 : Rot) (n : Fin 4000000) :
    val_main_v79 (F := Ideal) x0 x1 (ix3 n (2 : Fin 3) (2 : Fin 3)) = result x0 x1 (ix3 n (2 : Fin 3) (2 : Fin 3)) := by
  have el : ∀ k : Fin 3, lidx_main_v79 (ix3 n (2 : Fin 3) (2 : Fin 3)) k = ix3 n (2 : Fin 3) k :=
    fun k => funext fun d => by match d with | ⟨0, _⟩ => rfl | ⟨1, _⟩ => rfl | ⟨2, _⟩ => rfl
  have er : ∀ k : Fin 3, ridx_main_v79 (ix3 n (2 : Fin 3) (2 : Fin 3)) k = ix3 n (2 : Fin 3) k :=
    fun k => funext fun d => by match d with | ⟨0, _⟩ => rfl | ⟨1, _⟩ => rfl | ⟨2, _⟩ => rfl
  rw [val_main_v79_apply, sum3]
  simp only [el, er, M20_apply, M21_apply, M22_apply]
  rfl

/-! ## The whole array -/

/-- The reference program's result is the specification's function of its two arguments. -/
theorem ref_eq (x0 : (⟨Cert.ReferenceIdeal.S4000000x3, .f32⟩ : BufTy).Contents (Elt Ideal))
    (x1 : (⟨Cert.ReferenceIdeal.S4000000x4, .f32⟩ : BufTy).Contents (Elt Ideal)) :
    Cert.ReferenceIdeal.Read.val_main_v79 (F := Ideal) x0 x1 = Cert.QuatCov.result x0 x1 := by
  funext y
  obtain ⟨n, a, b, rfl⟩ : ∃ (n : Fin 4000000) (a b : Fin 3), y = ix3 n a b := ⟨y 0, y 1, y 2, eq_ix3 y⟩
  match a, b with
  | ⟨0, _⟩, ⟨0, _⟩ => exact res00 x0 x1 n
  | ⟨0, _⟩, ⟨1, _⟩ => exact res01 x0 x1 n
  | ⟨0, _⟩, ⟨2, _⟩ => exact res02 x0 x1 n
  | ⟨1, _⟩, ⟨0, _⟩ => exact res10 x0 x1 n
  | ⟨1, _⟩, ⟨1, _⟩ => exact res11 x0 x1 n
  | ⟨1, _⟩, ⟨2, _⟩ => exact res12 x0 x1 n
  | ⟨2, _⟩, ⟨0, _⟩ => exact res20 x0 x1 n
  | ⟨2, _⟩, ⟨1, _⟩ => exact res21 x0 x1 n
  | ⟨2, _⟩, ⟨2, _⟩ => exact res22 x0 x1 n

end Cert.ReferenceIdeal.RefValue

end
-- ==== Proof.lean ====
/-
  The covariance kernel against its reference: `Cert.Claim`.

  Both programs map a row of three log-scales and a quaternion to the 3×3 covariance `M Mᵀ`, `M = R · diag(exp s)`, `R` the
  rotation matrix of the quaternion divided by its norm clamped below at a small positive constant. The kernel works
  on a channel-major, lane-dense layout of the zero-padded arguments, multiplies by the reciprocal of the clamped norm,
  and spells the six distinct entries out; the reference divides by the clamped norm, builds `R` as nine columns and
  contracts `M` with itself. On the extended reals the two are one function of the arguments (Proof/CovSpec.lean): the
  clamped norm is never zero, so dividing by it is multiplying by its reciprocal; sums of three or four terms do not
  depend on how they are nested; the product is commutative. No finiteness of the inputs is used.

  The three frames are the generated frame runs (the reference's its generated run with the result dropped); the ideal
  pass rewrote nothing, so `preserves` is trivial; `algebraic` puts the kernel program's run (Proof/KernelValue.lean)
  beside the reference's generated run read index by index (Proof/RefValue.lean), both at the specification's function.
-/
import proofs.«112157_j57191784513783_2_alg».proof.Defs
import proofs.«112157_j57191784513783_2_alg».proof.Proof.Gen.Kernel
import proofs.«112157_j57191784513783_2_alg».proof.Proof.Gen.Kernel.Skeleton
import proofs.«112157_j57191784513783_2_alg».proof.Proof.Gen.Kernel.Launch
import proofs.«112157_j57191784513783_2_alg».proof.Proof.Gen.Kernel.Points
import proofs.«112157_j57191784513783_2_alg».proof.Proof.Gen.Kernel.Frame
import proofs.«112157_j57191784513783_2_alg».proof.Proof.Gen.KernelIdeal
import proofs.«112157_j57191784513783_2_alg».proof.Proof.Gen.KernelIdeal.Skeleton
import proofs.«112157_j57191784513783_2_alg».proof.Proof.Gen.KernelIdeal.Launch
import proofs.«112157_j57191784513783_2_alg».proof.Proof.Gen.KernelIdeal.Points
import proofs.«112157_j57191784513783_2_alg».proof.Proof.Gen.KernelIdeal.Frame
import proofs.«112157_j57191784513783_2_alg».proof.Proof.Gen.ReferenceIdeal
import proofs.«112157_j57191784513783_2_alg».proof.Proof.Gen.ReferenceIdeal.Run
import proofs.«112157_j57191784513783_2_alg».proof.Proof.Gen.ReferenceIdeal.Read
import proofs.«112157_j57191784513783_2_alg».proof.Proof.Gen.Pre_finite_inputs
import proofs.«112157_j57191784513783_2_alg».proof.Proof.KernelValue
import proofs.«112157_j57191784513783_2_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result buffer at the specification's function
    of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
